-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x16384 : Shape := ⟨2, ![16384, 16384]⟩
abbrev S256x64 : Shape := ⟨2, ![256, 64]⟩
abbrev S64 : Shape := ⟨1, ![64]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16384x256 .f32) (main_arg1 : FVec F S16384x16384 .f32) (main_arg2 : FVec F S256x64 .f32) (main_arg3 : FVec F S64 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16384x256 : Shape := ⟨2, ![16384, 256]⟩
abbrev S16384x16384 : Shape := ⟨2, ![16384, 16384]⟩
abbrev S256x64 : Shape := ⟨2, ![256, 64]⟩
abbrev S64 : Shape := ⟨1, ![64]⟩
abbrev S1x64 : Shape := ⟨2, ![1, 64]⟩
abbrev S16384x64 : Shape := ⟨2, ![16384, 64]⟩
abbrev S2048x256 : Shape := ⟨2, ![2048, 256]⟩
abbrev S2048x64 : Shape := ⟨2, ![2048, 64]⟩
abbrev S1024x2048 : Shape := ⟨2, ![1024, 2048]⟩
abbrev S1024x64 : Shape := ⟨2, ![1024, 64]⟩

abbrev nBuf : Space → Nat
  | .hbm => 7
  | .vmem => 13
  | .smem => 0
  | _ => 0

abbrev bufTy : (tb : Table) → Fin (tcTables nBuf tb) → BufTy
  | .hbm, ⟨0, _⟩ => ⟨S16384x256, .f32⟩
  | .hbm, ⟨1, _⟩ => ⟨S16384x16384, .f32⟩
  | .hbm, ⟨2, _⟩ => ⟨S256x64, .f32⟩
  | .hbm, ⟨3, _⟩ => ⟨S64, .f32⟩
  | .hbm, ⟨4, _⟩ => ⟨S1x64, .f32⟩
  | .hbm, ⟨5, _⟩ => ⟨S16384x64, .f32⟩
  | .hbm, ⟨6, _⟩ => ⟨S16384x64, .f32⟩
  | .local _ .vmem, ⟨0, _⟩ => ⟨S2048x256, .f32⟩
  | .local _ .vmem, ⟨1, _⟩ => ⟨S2048x256, .f32⟩
  | .local _ .vmem, ⟨2, _⟩ => ⟨S256x64, .f32⟩
  | .local _ .vmem, ⟨3, _⟩ => ⟨S1x64, .f32⟩
  | .local _ .vmem, ⟨4, _⟩ => ⟨S2048x64, .f32⟩
  | .local _ .vmem, ⟨5, _⟩ => ⟨S2048x64, .f32⟩
  | .local _ .vmem, ⟨6, _⟩ => ⟨S1024x2048, .f32⟩
  | .local _ .vmem, ⟨7, _⟩ => ⟨S1024x2048, .f32⟩
  | .local _ .vmem, ⟨8, _⟩ => ⟨S2048x64, .f32⟩
  | .local _ .vmem, ⟨9, _⟩ => ⟨S2048x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S64_S1x64 : S64.ShapeCasts S1x64
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x2048_S1024x2048_0_0 : ∀ a, (![0, 0] : Fin 2 → Nat) a + S1024x2048.size a ≤ S1024x2048.size a
  h_S1024x2048 : 0 < S1024x2048.numel
  shapeCasts_S2048x64_S2048x64 : S2048x64.ShapeCasts S2048x64
  dot_S2048x256_S256x64_S2048x64_1_0_0_1_n_n_wf : DotDims.WF S2048x256 S256x64 S2048x64 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S16384x64.size a
  hwx0_3 : ∀ i : grid0.Coords, EltTy.bits .f32 = 32 ∨ (Rect.block (s := S16384x64) S2048x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .f32 = 32 ∨ (Rect.block (s := S16384x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S16384x64.size a
  hwx1_2 : ∀ i : grid1.Coords, EltTy.bits .f32 = 32 ∨ (Rect.block (s := S16384x64) S1024x64.size (cc1_transform_2 i) (hinb1_2 i)).WholeWords (EltTy.packing .f32)

variable [Facts₀]

def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384x256 : Shape := ⟨2, ![16384, 256]⟩
abbrev S16384x16384 : Shape := ⟨2, ![16384, 16384]⟩
abbrev S256x64 : Shape := ⟨2, ![256, 64]⟩
abbrev S64 : Shape := ⟨1, ![64]⟩
abbrev S16384x64 : Shape := ⟨2, ![16384, 64]⟩
abbrev S1x64 : Shape := ⟨2, ![1, 64]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x16384, .f32⟩
  | .hbm, ⟨2, _⟩ => ⟨S256x64, .f32⟩
  | .hbm, ⟨3, _⟩ => ⟨S64, .f32⟩
  | .hbm, ⟨4, _⟩ => ⟨S16384x64, .f32⟩
  | .hbm, ⟨5, _⟩ => ⟨S1x64, .f32⟩
  | .hbm, ⟨6, _⟩ => ⟨S16384x64, .f32⟩
  | .hbm, ⟨7, _⟩ => ⟨S16384x64, .f32⟩
  | .hbm, ⟨8, _⟩ => ⟨S16384x64, .f32⟩
  | .hbm, ⟨9, _⟩ => ⟨S_, .f32⟩
  | .hbm, ⟨10, _⟩ => ⟨S16384x64, .f32⟩
  | .hbm, ⟨11, _⟩ => ⟨S16384x64, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  dot_S16384x256_S256x64_S16384x64_1_0_0_1_n_n_wf : DotDims.WF S16384x256 S256x64 S16384x64 [1] [0] [0] [1] [] []
  dot_S16384x16384_S16384x64_S16384x64_1_0_0_1_n_n_wf : DotDims.WF S16384x16384 S16384x64 S16384x64 [1] [0] [0] [1] [] []

variable [Facts₀]

def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.K.Region0.lean ====
import proofs.«147028_j60885456388981_1_alg».proof.Proof.Gen.Kernel.Launch
import proofs.«147028_j60885456388981_1_alg».proof.Proof.Gen.Kernel.Skeleton
import proofs.«147028_j60885456388981_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The projection region: h = x W + b, one row block at a time

The first region walks the 8 row blocks of `x` (2048 rows each). At block `t` it sees
rows `2048 t … 2048 t + 2047` of `x`, the whole of `W`, the whole of the bias row `b`, and writes
rows `2048 t … 2048 t + 2047` of `h`. Nothing is carried from one block to the next: the block of `h`
written at `t` is a function of the three input blocks seen at `t` alone.

This file states that fact for whatever the arrays hold when the region is entered (`V`):

* `iblk0 V c w t`  — the block of window `w` at step `t`, read off the array as the region finds it;
* `out0_3 x0 x1 x2` — the output block as a function of the three input blocks: the single value the
  body computes, laid over the whole output block;
* `dat0 V c` — the bookkeeping of the walk: after step `t` the three input buffers still hold their
  blocks and the output buffer holds `out0_3` of them;
* `body_obligation0` — one step of the walk does exactly that.

Everything is stated for an arbitrary arithmetic of floats: no property of addition or multiplication
is used, only which value is stored where.
-/

-- deciding that a rectangle of 2048 × 256 cells is the whole block recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- what every array holds when the region is entered
variable (V : (c : Dev nD) → (b : Ref sig .tc) → Buf (Elt F) ((c : Thread nD τ).loc b))

/-! ## The blocks the region sees -/

/-- The block of window `w` at step `t`: the rows (and columns) of the window's array that step `t`
    looks at, as the array stands when the region is entered. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer of `x` holds the row block of step `t` when step `t` begins. The block index moves at every
    step, so the block is brought in afresh each time; what was brought in is the block of the array. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The buffer of `W` holds all of `W` when any step begins. `W` is brought in once, before the first
    step; at a later step nothing is brought in, but the block index (always the origin) has not moved and
    the step before left the buffer as it found it, so it still holds the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The buffer of the bias row holds the bias row when any step begins, for the same reason. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## Where the body reads and writes: each buffer, whole -/

abbrev r0_0 : Rect S2048x256 := Rect.unit (s := S2048x256) ![0, 0] S2048x256.size inb_S2048x256_S2048x256_0_0
abbrev r0_1 : Rect S256x64 := Rect.unit (s := S256x64) ![0, 0] S256x64.size inb_S256x64_S256x64_0_0
abbrev r0_2 : Rect S1x64 := Rect.unit (s := S1x64) ![0, 0] S1x64.size inb_S1x64_S1x64_0_0
abbrev r0_3 : Rect S2048x64 := Rect.unit (s := S2048x64) ![0, 0] S2048x64.size inb_S2048x64_S2048x64_0_0

/-! ## The output block as a function of the input blocks -/

/-- What one step leaves in the output buffer, given the three input blocks: the one value the body
    computes from them (`k0_pay1`: the product of the first two plus the third, row by row), written over
    the whole buffer. -/
def out0_3 (x0 : Vec F S2048x256 .f32) (x1 : Vec F S256x64 .f32) (x2 : Vec F S1x64 .f32) : Vec F S2048x64 .f32 :=
  View.canon [⟨r0_3, k0_pay1 (View.ld x0 r0_0) (View.ld x1 r0_1) (View.ld x2 r0_2)⟩]

/-- The one write covers every cell of the output buffer: its rectangle starts at the origin and has the
    buffer's own extents. -/
theorem cover0_3 (p0 : Vec F S2048x64 .f32) (y : S2048x64.Idx) :
    ∃ pc ∈ ([⟨r0_3, p0⟩] : List (View.Piece (Elt F) S2048x64 .f32)), y ∈ pc.1.set :=
  View.cover_of_tiled [⟨r0_3, p0⟩] S2048x64.size (by rfl) y

/-! ## One run of the body -/

set_option maxHeartbeats 1000000 in
/-- The body, run on three input buffers holding `x0`, `x1`, `x2` and an output buffer holding anything,
    ends with the inputs untouched and the output buffer holding `out0_3 x0 x1 x2`. It reads the three
    inputs whole, reads the output buffer too (and discards what it read), computes, and writes the
    result over the whole output buffer; since that write covers the buffer, what was there before —
    the discarded read included — does not matter. The grid coordinate `i` is never looked at. -/
theorem sound_kernel0 (c : Dev nD) (E : Set ℕ) (i : grid0.Coords)
    (arg1 : Memref sig .tc .vmem S2048x256 .f32) (harg1 : arg1.IsWhole)
    (arg2 : Memref sig .tc .vmem S256x64 .f32) (harg2 : arg2.IsWhole)
    (arg3 : Memref sig .tc .vmem S1x64 .f32) (harg3 : arg3.IsWhole)
    (arg4 : Memref sig .tc .vmem S2048x64 .f32) (harg4 : arg4.IsWhole)
    (x0 : Vec F S2048x256 .f32) (x1 : Vec F S256x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__project_kernel i arg1 harg1 arg2 harg2 arg3 harg3 arg4 harg4) K := by
  simp only [cc0__project_kernel_eq_skeleton]; unfold cc0__project_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The bookkeeping of the walk -/

/-- The walk's bookkeeping on core `c`: the arrays are as the region finds them; after step `t` each
    input buffer holds its block of step `t` and the output buffer holds `out0_3` of the three; nothing
    else the core owns is touched, and no write is left pending. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The bookkeeping's arrays are the entry contents. -/
theorem A_eq0 (c : Dev nD) (w : Fin cfg0.W) : (dat0 V c).A w = V c (Pipeline.arrRef spec0 w) := by
  dsimp only [dat0]

/-- What each buffer holds after step `t`, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- What each input buffer holds when step `t` begins: its block of step `t`. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## One step of the walk -/

/-- What the core owns when the body is called at step `t`: the untouched rest, nothing pending, and the
    four current buffers at their contents before the step. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it owns when the body returns: the same, the four buffers at their contents after the step. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at step `t`: the three input buffers hold their blocks (`before0_W`), the output buffer holds
    something, so one run of the body (`sound_kernel0`) leaves the inputs as they were and the output at
    `out0_3` of the blocks; the rest of what the core owns passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- Every step of the walk does what the bookkeeping says. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.R1Shared.lean ====
/-
  The aggregation kernel (the second pallas_call), at the buffer contents V it is entered from: what its runs share.

  The grid is 16 x 8: point t is row block t / 8 (1024 rows of adj and of the result) and column block t % 8 (2048
  columns of adj, equally 2048 rows of the projected features h). The body keeps a 1024 x 64 accumulator in a scratch
  buffer across the eight column blocks of a row block: it is reset where t % 8 = 0, the product of the two tiles is
  added at every point, and where t % 8 = 7 the ramp of the accumulator is stored into the output block. So the body's two
  conditions, read off the grid coordinates, are "t % 8 = 0" and "t % 8 = 7", and there are three cases:
    A  (t % 8 = 0)      the accumulator is reset and the first product added; nothing is stored into the output;
    B  (0 < t % 8 < 7)  a product is added to what the point before left; nothing is stored into the output;
    C  (t % 8 = 7)      the last product is added and the ramp of the sum is stored into the output block.
  At the points of cases A and B the output window is idle and is not written back.
-/
import proofs.«147028_j60885456388981_1_alg».proof.Proof.Gen.Kernel.Launch
import proofs.«147028_j60885456388981_1_alg».proof.Proof.Gen.Kernel.Skeleton
import proofs.«147028_j60885456388981_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of adj is in its staging buffer at every point: it is fetched at every point, and the body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The tile of the projected features likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the grid -/

/-- "This is the first column block": the body's first condition as it computes it from the column-block coordinate. -/
abbrev cond1_0 (i : grid1.Coords) : Prop := (Scalar.cmpi .ne (Scalar.extui (Scalar.cmpi .eq (BitVec.ofNat 32 (i 1).val) 0#32)) 0#32) = 1#1
/-- It holds exactly where t % 8 = 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last column block": the body's second condition. -/
abbrev cond1_1 (i : grid1.Coords) : Prop := k1_cond2 i = 1#1
/-- It holds exactly where t % 8 = 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Off the last column block nothing is stored into the output block, and it is not written back there. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- On the last column block the output block is stored. -/
theorem liveAt1_2 : ∀ t : Fin cfg1.N, cond1_1 (grid1.coords t) → cfg1.idle 2 (grid1.coords t) = false := by decide +kernel

/-! ## The memrefs the body is called with -/

/-- One staging buffer of the output window, through which its contents are stated (the choice does not matter). -/
abbrev VO1_2 : View sig .tc .vmem S1024x64 .f32 := (Memref.whole cc1_stg2_0 : Memref sig .tc .vmem S1024x64 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1024x64 .f32 := Memref.whole cc1_scratch0
abbrev VS1_0 : View sig .tc .vmem S1024x64 .f32 := scM1_0.view

end Cert.Kernel.Hand

end
-- ==== Proof.K.R1RunA.lean ====
/-
  The aggregation kernel's body on the first column block of a row block (case A: t % 8 = 0).
  Given the tile of adj and the tile of the projected features in their buffers, the output buffer at any contents (it
  is handed back untouched) and the accumulator at any contents, the body runs to the end leaving the two tiles as they
  were and the accumulator written by its stores: first the zero array, then the sum of what it then holds and the
  product of the two tiles. The list of pieces the accumulator ends with is found by running the body.
-/
import proofs.«147028_j60885456388981_1_alg».proof.Proof.K.R1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- Case A's run: the pieces the accumulator ends with, and the body's triple. -/
noncomputable def kernelRun1_A (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond1_0 i) (hc1 : ¬cond1_1 i)
    (x0 : Vec F S1024x2048 .f32) (x1 : Vec F S2048x64 .f32) :
    { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__agg_kernel i arg2 harg2 arg3 harg3 arg4 harg4 arg5 harg5) K } := by
  refine ⟨?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.R1RunB.lean ====
/-
  The aggregation kernel's body on a middle column block (case B: 0 < t % 8 < 7).
  The accumulator holds what the point before left; the body adds the product of the two tiles to it and stores the sum
  back. Nothing is stored into the output buffer, which is handed back untouched.
-/
import proofs.«147028_j60885456388981_1_alg».proof.Proof.K.R1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- Case B's run: the pieces the accumulator ends with, and the body's triple. -/
noncomputable def kernelRun1_B (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : ¬cond1_1 i)
    (x0 : Vec F S1024x2048 .f32) (x1 : Vec F S2048x64 .f32) (xs0 : Vec F S1024x64 .f32) :
    { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__agg_kernel i arg2 harg2 arg3 harg3 arg4 harg4 arg5 harg5) K } := by
  refine ⟨?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.R1RunC.lean ====
/-
  The aggregation kernel's body on the last column block (case C: t % 8 = 7).
  The accumulator holds what the point before left; the body adds the last product, stores the sum back, reads it again
  and stores its ramp (the entrywise maximum with zero) into the output buffer, whatever that held.
-/
import proofs.«147028_j60885456388981_1_alg».proof.Proof.K.R1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- Case C's run: the pieces the output buffer and the accumulator end with, and the body's triple. -/
noncomputable def kernelRun1_C (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i)
    (x0 : Vec F S1024x2048 .f32) (x1 : Vec F S2048x64 .f32) (xs0 : Vec F S1024x64 .f32) :
    Σ' (L2 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__agg_kernel i arg2 harg2 arg3 harg3 arg4 harg4 arg5 harg5) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Region1.lean ====
/-
  The aggregation kernel (the second pallas_call) at the buffer contents V it is entered from: what its accumulator and
  its output block hold after every grid point, the pipeline's proof data, and the body's obligation at every point.

  Write t for a grid point, t / 8 its row block and t % 8 its column block. After point t the accumulator holds
    acc t = (zeros + product t)           where t % 8 = 0  (the first column block resets it),
    acc t = acc (t - 1) + product t       elsewhere,
  "product t" being the 1024 x 64 product of the point's tile of adj with its tile of the projected features; and where
  t % 8 = 7 the output block is the ramp of acc t. These are the terms the body's runs found, read back; the invariant
  the pipeline carries from point to point says the accumulator's buffer holds acc t after point t (and anything before
  the first point), beside the buffers the kernel never touches.
-/
import proofs.«147028_j60885456388981_1_alg».proof.Proof.K.R1RunA
import proofs.«147028_j60885456388981_1_alg».proof.Proof.K.R1RunB
import proofs.«147028_j60885456388981_1_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's stores into the accumulator cover it. -/
theorem scover1_A (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond1_0 i) (hc1 : ¬cond1_1 i)
    (x0 : Vec F S1024x2048 .f32) (x1 : Vec F S2048x64 .f32) (y : S1024x64.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S1024x64.size (by sl_kernel_rfl) y

/-- What case A leaves in the accumulator: its stores read back. -/
def sout1_A (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond1_0 i) (hc1 : ¬cond1_1 i)
    (x0 : Vec F S1024x2048 .f32) (x1 : Vec F S2048x64 .f32) : Vec F S1024x64 .f32 :=
  VS1_0.read (Elt F) (VS1_0.writes (Elt F) VS1_0.junk (kernelRun1_A c i arg2 harg2 arg3 harg3 arg4 harg4 arg5 harg5 hc0 hc1 x0 x1).1)

/-- Case B's store into the accumulator covers it. -/
theorem scover1_B (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : ¬cond1_1 i)
    (x0 : Vec F S1024x2048 .f32) (x1 : Vec F S2048x64 .f32) (xs0 : Vec F S1024x64 .f32) (y : S1024x64.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S1024x64.size (by sl_kernel_rfl) y

/-- What case B leaves in the accumulator. -/
def sout1_B (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : ¬cond1_1 i)
    (x0 : Vec F S1024x2048 .f32) (x1 : Vec F S2048x64 .f32) (xs0 : Vec F S1024x64 .f32) : Vec F S1024x64 .f32 :=
  VS1_0.read (Elt F) (VS1_0.writes (Elt F) VS1_0.junk (kernelRun1_B c i arg2 harg2 arg3 harg3 arg4 harg4 arg5 harg5 hc0 hc1 x0 x1 xs0).1)

/-- Case C's store into the output block covers it. -/
theorem cover1_C_2 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i)
    (x0 : Vec F S1024x2048 .f32) (x1 : Vec F S2048x64 .f32) (xs0 : Vec F S1024x64 .f32) (y : S1024x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x64.size (by sl_kernel_rfl) y

/-- What case C leaves in the output block. -/
def out1_C_2 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i)
    (x0 : Vec F S1024x2048 .f32) (x1 : Vec F S2048x64 .f32) (xs0 : Vec F S1024x64 .f32) : Vec F S1024x64 .f32 :=
  VO1_2.read (Elt F) (VO1_2.writes (Elt F) VO1_2.junk (kernelRun1_C c i arg2 harg2 arg3 harg3 arg4 harg4 arg5 harg5 hc0 hc1 x0 x1 xs0).1)

/-- Case C's store into the accumulator covers it. -/
theorem scover1_C (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i)
    (x0 : Vec F S1024x2048 .f32) (x1 : Vec F S2048x64 .f32) (xs0 : Vec F S1024x64 .f32) (y : S1024x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x64.size (by sl_kernel_rfl) y

/-- What case C leaves in the accumulator. -/
def sout1_C (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i)
    (x0 : Vec F S1024x2048 .f32) (x1 : Vec F S2048x64 .f32) (xs0 : Vec F S1024x64 .f32) : Vec F S1024x64 .f32 :=
  VS1_0.read (Elt F) (VS1_0.writes (Elt F) VS1_0.junk (kernelRun1_C c i arg2 harg2 arg3 harg3 arg4 harg4 arg5 harg5 hc0 hc1 x0 x1 xs0).2.1)

/-! ## The cases at a grid point -/

/-- The accumulator after a point on the first column block. -/
def accA (c : Dev nD) (t : Fin cfg1.N) (h0 : t.val % 8 = 0) (h1 : ¬t.val % 8 = 7) : Vec F S1024x64 .f32 :=
  sout1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)
/-- The accumulator after a point on a middle column block, from what the point before left. -/
def accB (c : Dev nD) (t : Fin cfg1.N) (h0 : ¬t.val % 8 = 0) (h1 : ¬t.val % 8 = 7) (xs : Vec F S1024x64 .f32) : Vec F S1024x64 .f32 :=
  sout1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) xs
/-- The accumulator after a point on the last column block, from what the point before left. -/
def accC (c : Dev nD) (t : Fin cfg1.N) (h0 : ¬t.val % 8 = 0) (h1 : t.val % 8 = 7) (xs : Vec F S1024x64 .f32) : Vec F S1024x64 .f32 :=
  sout1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) xs
/-- The output block after a point on the last column block. -/
def outC (c : Dev nD) (t : Fin cfg1.N) (h0 : ¬t.val % 8 = 0) (h1 : t.val % 8 = 7) (xs : Vec F S1024x64 .f32) : Vec F S1024x64 .f32 :=
  out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) xs

/-- A stand-in for the output block at the points that store nothing into it: nothing consults it, since the block is
    neither written back there nor read at the next point. -/
def idleOut : Vec F S1024x64 .f32 := VO1_2.read (Elt F) VO1_2.junk

/-! ## What the output block and the accumulator hold after each point -/

/-- The pair (output block, accumulator) after point n, by recursion on n. -/
def outsAt1 (c : Dev nD) : (n : ℕ) → n < cfg1.N → Vec F S1024x64 .f32 × Vec F S1024x64 .f32
  | 0, hn => (idleOut, accA V c ⟨0, hn⟩ (Nat.zero_mod _) (fun h : 0 % 8 = 7 => absurd h (by decide)))
  | n + 1, hn =>
    if h0 : (n + 1) % 8 = 0 then
      (idleOut, accA V c ⟨n + 1, hn⟩ h0 (fun h : (n + 1) % 8 = 7 => by omega))
    else
      if h1 : (n + 1) % 8 = 7 then
        (outC V c ⟨n + 1, hn⟩ h0 h1 (outsAt1 c n (Nat.lt_of_succ_lt hn)).2, accC V c ⟨n + 1, hn⟩ h0 h1 (outsAt1 c n (Nat.lt_of_succ_lt hn)).2)
      else
        (idleOut, accB V c ⟨n + 1, hn⟩ h0 h1 (outsAt1 c n (Nat.lt_of_succ_lt hn)).2)

theorem outsAt1_A (c : Dev nD) (t : Fin cfg1.N) (h0 : t.val % 8 = 0) (h1 : ¬t.val % 8 = 7) :
    outsAt1 V c t.val t.isLt = (idleOut, accA V c t h0 h1) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = (idleOut, accB V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (outC V c t h0 h1 (outsAt1 V c (t.val - 1) (Nat.lt_of_le_of_lt (Nat.sub_le _ _) t.isLt)).2,
      accC V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant carried from point to point -/

/-- The scoped buffers this kernel never touches (the other kernel's staging buffers), each whole at some contents. -/
def restS1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The accumulator's buffer before point n: at anything before the first point, afterwards at what point n - 1 left. -/
def accS (c : Dev nD) : (n : ℕ) → n ≤ cfg1.N → sProp 𝕄
  | 0, _ => iprop(∃ d, owns (c : Thread nD τ) scM1_0 fullShare d)
  | n + 1, hn => owns (c : Thread nD τ) scM1_0 fullShare (outsAt1 V c n hn).2

theorem accS_succ (c : Dev nD) (n : ℕ) (hn : n < cfg1.N) :
    accS V c (n + 1) hn = owns (c : Thread nD τ) scM1_0 fullShare (outsAt1 V c n hn).2 := rfl

theorem accS_pos (c : Dev nD) (n : ℕ) (h : n ≤ cfg1.N) (hz : n ≠ 0) :
    accS V c n h = owns (c : Thread nD τ) scM1_0 fullShare (outsAt1 V c (n - 1) (by omega)).2 := by
  cases n with
  | zero => exact absurd rfl hz
  | succ n => rfl

/-- Whatever the point, the accumulator's buffer is whole at some contents. -/
theorem accS_any (c : Dev nD) (n : ℕ) (h : n ≤ cfg1.N) :
    accS V c n h ⊢ iprop(∃ d, owns (c : Thread nD τ) scM1_0 fullShare d) := by
  cases n with
  | zero => exact Idealize.SL.BI.Entails.refl _
  | succ n => rw [accS_succ]; iintro H; iexists _; iexact H

/-- The invariant before point n: the untouched scoped buffers, the accumulator, the generator register at some state. -/
def PhiS (c : Dev nD) (n : ℕ) (h : n ≤ cfg1.N) : sProp 𝕄 :=
  iprop((restS1 c ∗ accS V c n h) ∗ ∃ r, prngReg c r)

/-- What the launch hands the region is that invariant with the accumulator at anything. -/
theorem PhiA1_split (c : Dev nD) :
    (Pipeline.ΦA spec1 c : sProp 𝕄) ⊢ iprop((restS1 c ∗ ∃ d, owns (c : Thread nD τ) scM1_0 fullShare d) ∗ ∃ r, prngReg c r) := by
  unfold Pipeline.ΦA restS1; rw [scopedRest1_eq]; simp only [scM1_0, owns_whole]
  iintro ⟨⟨Ha, Hb, Hc, Hd, He, Hf, HS⟩, Hg⟩
  isplitl [Ha Hb Hc Hd He Hf HS]
  · isplitl [Ha Hb Hc Hd He Hf]
    · isplitl [Ha]; · iexact Ha
      isplitl [Hb]; · iexact Hb
      isplitl [Hc]; · iexact Hc
      isplitl [Hd]; · iexact Hd
      isplitl [He]; · iexact He
      iexact Hf
    iexact HS
  iexact Hg

/-- And back: forgetting what the accumulator holds. -/
theorem PhiA1_join (c : Dev nD) :
    iprop((restS1 c ∗ ∃ d, owns (c : Thread nD τ) scM1_0 fullShare d) ∗ ∃ r, prngReg c r) ⊢ (Pipeline.ΦA spec1 c : sProp 𝕄) := by
  unfold Pipeline.ΦA restS1; rw [scopedRest1_eq]; simp only [scM1_0, owns_whole]
  iintro ⟨⟨⟨Ha, Hb, Hc, Hd, He, Hf⟩, HS⟩, Hg⟩
  isplitl [Ha Hb Hc Hd He Hf HS]
  · isplitl [Ha]; · iexact Ha
    isplitl [Hb]; · iexact Hb
    isplitl [Hc]; · iexact Hc
    isplitl [Hd]; · iexact Hd
    isplitl [He]; · iexact He
    isplitl [Hf]; · iexact Hf
    iexact HS
  iexact Hg

/-! ## The pipeline's proof data -/

/-- The arrays as the region finds them; after the body at point t the two tiles in place and the output block at what
    the recursion says; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Cert.Kernel.Hand

end
-- ==== Proof.K.Region1Body.lean ====
/-
  The aggregation kernel's body obligation: at every grid point, from the invariant before the point and the windows'
  buffers at what the pipeline staged, the body runs to the invariant after the point and the buffers at what the proof
  data say. The point's column block t % 8 decides the case: on the first the accumulator is reset (so whatever it held
  is irrelevant), on the others it holds what the point before left; on the last the output block is stored, elsewhere
  it is handed back as it came.
-/
import proofs.«147028_j60885456388981_1_alg».proof.Proof.K.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_castSucc V c t]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  unfold PhiS
  rw [accS_succ]
  have hN : t.val < 128 := lt_of_lt_of_eq t.isLt (show cfg1.N = 128 from N_1)
  by_cases h1 : t.val % 8 = 7
  · -- the last column block: the accumulator holds what the point before left; the output block is stored
    have h0 : ¬t.val % 8 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [outsAt1_C V c t h0 h1, accS_pos V c _ _ hz]
    unfold outC accC out1_C_2 sout1_C; (try dsimp only)
    iintro ⟨⟨⟨HR, HS0⟩, Hg⟩, Ho, ⟨%d0, H0⟩, ⟨%d1, H1⟩, ⟨%d2, H2⟩⟩
    iapply ((kernelRun1_C c (grid1.coords t) _ _ _ _ _ _ _ _ (fun h => h0 ((hcond1_0 t).mp h)) ((hcond1_1 t).mpr h1) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HR HS0 Hg]
    · isplitl [HR HS0]
      · isplitl [HR]; · iexact HR
        unfold owns; iexists _; isplitr
        swap; · iexact HS0
        ipureintro; exact View.read_writes_of_cover _ _ _ _ _ (scover1_C c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_C_2 c _ _ _ _ _ _ _ _ _ _ _ _ _ _)
  · rw [Dat.leavesExact_idle (dat1 V c) 2 t (idleAt1_2 t (fun h => h1 ((hcond1_1 t).mp h))) (noFlush1_2 t (fun h => h1 ((hcond1_1 t).mp h)))]
    by_cases h0 : t.val % 8 = 0
    · -- the first column block: the accumulator is reset, so whatever it held is given up
      rw [outsAt1_A V c t h0 h1]
      unfold accA sout1_A; (try dsimp only)
      iintro ⟨⟨⟨HR, HS0⟩, Hg⟩, Ho, ⟨%d0, H0⟩, ⟨%d1, H1⟩, ⟨%d2, H2⟩⟩
      ihave HS0' := (accS_any V c _ _) $$ HS0
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0']; · iexact HS0'
      iintro ⟨H0, H1, H2, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
    · -- a middle column block: the accumulator holds what the point before left
      have hz : t.val ≠ 0 := by omega
      rw [outsAt1_B V c t h0 h1, accS_pos V c _ _ hz]
      unfold accB sout1_B; (try dsimp only)
      iintro ⟨⟨⟨HR, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl]
  exact PhiA1_split c

/-- Before any point the invariant gives back what the launch handed over: what the accumulator holds is forgotten. -/
theorem PhiS_forget (c : Dev nD) (n : ℕ) (h : n ≤ cfg1.N) : PhiS V c n h ⊢ (Pipeline.ΦA spec1 c : sProp 𝕄) := by
  unfold PhiS
  iintro ⟨⟨HR, HS0⟩, Hg⟩
  iapply (PhiA1_join c)
  isplitl [HR HS0]
  · isplitl [HR]; · iexact HR
    iapply (accS_any V c _ _); iexact HS0
  iexact Hg

/-- In particular after the last point. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl]
  exact PhiS_forget V c _ _

end Cert.Kernel.Hand

end
-- ==== Proof.K.Run.lean ====
/-
  The whole program's run: a reshape of the bias on the host, the projection kernel, the aggregation kernel.

  The buffers' contents are followed from boundary to boundary: U0 at launch; U1 after the host reshape; U2 after the
  projection kernel (its output array at what its write-backs leave, every other buffer as before); U3 after the
  aggregation kernel likewise. Each kernel region is entered from "every unscoped buffer holds the boundary's contents"
  and left at the same statement for the next boundary; beside it ride the generator register and the fact that the
  core owes nothing. The run's post names every unscoped buffer at U3, from which both the frame (the argument arrays end
  as launched: no kernel writes an input, the host writes only the reshaped bias) and the result array are read.
-/
import proofs.«147028_j60885456388981_1_alg».proof.Proof.K.Region0
import proofs.«147028_j60885456388981_1_alg».proof.Proof.K.Region1Body
import proofs.«147028_j60885456388981_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev U0 : Dev nD → Valuation τ sig (Elt F) := fun c b => m (c, b)
/-- After the host reshape of the bias (the projection kernel's entry). -/
abbrev U1 : Dev nD → Valuation τ sig (Elt F) := fun c => StableHlo.after hostOps0 (U0 m c)
/-- The same read at the TensorCore's references. -/
abbrev In0 : (c : Dev nD) → (b : Ref sig .tc) → Buf (Elt F) ((c : Thread nD τ).loc b) := fun c b => U1 m c b
/-- After the projection kernel: its arrays at what the pipeline leaves, every other buffer as entered. -/
def U2 (c : Dev nD) : Valuation τ sig (Elt F) :=
  Pipeline.withArrays spec0 c (U1 m c) fun w => (dat0 (In0 m) c).arrAt w cfg0.N
theorem U2_arr (c : Dev nD) (w : Fin cfg0.W) :
    U2 m c (Proc.devRef .tc (Pipeline.arrRef spec0 w)) = (dat0 (In0 m) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m c (Proc.devRef .tc b) = U1 m c (Proc.devRef .tc b) := by
  unfold U2; exact Pipeline.withArrays_of_ne spec0 c _ _ b hb
/-- The same read at the TensorCore's references (the aggregation kernel's entry). -/
abbrev In1 : (c : Dev nD) → (b : Ref sig .tc) → Buf (Elt F) ((c : Thread nD τ).loc b) := fun c b => U2 m c b
theorem hF0 (c : Dev nD) (w : Fin cfg0.W) : (dat0 (In0 m) c).arrAt w cfg0.N = In1 m c (Pipeline.arrRef spec0 w) :=
  (U2_arr m c w).symm
theorem hrest0 (c : Dev nD) : ∀ b, b ∉ Finset.univ.image (Pipeline.arrRef spec0) → In1 m c b = In0 m c b :=
  fun b hb => U2_of_ne m c b fun w e => hb (Finset.mem_image.mpr ⟨w, Finset.mem_univ _, e⟩)

/-- After the aggregation kernel. -/
def U3 (c : Dev nD) : Valuation τ sig (Elt F) :=
  Pipeline.withArrays spec1 c (U2 m c) fun w => (dat1 (In1 m) c).arrAt w cfg1.N
theorem U3_arr (c : Dev nD) (w : Fin cfg1.W) :
    U3 m c (Proc.devRef .tc (Pipeline.arrRef spec1 w)) = (dat1 (In1 m) c).arrAt w cfg1.N := by
  unfold U3; exact Pipeline.withArrays_arr spec1 launch1.win.arr_inj c _ _ w
theorem U3_of_ne (c : Dev nD) (b : Ref sig .tc) (hb : ∀ w, Pipeline.arrRef spec1 w ≠ b) :
    U3 m c (Proc.devRef .tc b) = U2 m c (Proc.devRef .tc b) := by
  unfold U3; exact Pipeline.withArrays_of_ne spec1 c _ _ b hb
abbrev Out : (c : Dev nD) → (b : Ref sig .tc) → Buf (Elt F) ((c : Thread nD τ).loc b) := fun c b => U3 m c b
theorem hF1 (c : Dev nD) (w : Fin cfg1.W) : (dat1 (In1 m) c).arrAt w cfg1.N = Out m c (Pipeline.arrRef spec1 w) :=
  (U3_arr m c w).symm
theorem hrest1 (c : Dev nD) : ∀ b, b ∉ Finset.univ.image (Pipeline.arrRef spec1) → Out m c b = In1 m c b :=
  fun b hb => U3_of_ne m c b fun w e => hb (Finset.mem_image.mpr ⟨w, Finset.mem_univ _, e⟩)

/-! ## The argument arrays end as launched -/

/-- The host reshape writes only the reshaped bias. -/
theorem U1_of (c : Dev nD) (r : Ref sig .tc) (h : r ∉ hostOps0_W) : U1 m c r = U0 m c r := V1_of m c r h

theorem U3_main_arg0 (c : Dev nD) : U3 m c (Proc.devRef .tc main_arg0) = m ((c : Thread nD τ).loc main_arg0) :=
  calc U3 m c (Proc.devRef .tc main_arg0)
    _ = U2 m c (Proc.devRef .tc main_arg0) := U3_of_ne m c main_arg0 (by decide)
    _ = U1 m c (Proc.devRef .tc main_arg0) := (U2_arr m c 0).trans (((dat0 (In0 m) c).arrAt_in 0 rfl _).trans (A_eq0 (In0 m) c 0))
    _ = U0 m c (Proc.devRef .tc main_arg0) := U1_of m c main_arg0 (by decide)
    _ = m ((c : Thread nD τ).loc main_arg0) := rfl

theorem U3_main_arg1 (c : Dev nD) : U3 m c (Proc.devRef .tc main_arg1) = m ((c : Thread nD τ).loc main_arg1) :=
  calc U3 m c (Proc.devRef .tc main_arg1)
    _ = U2 m c (Proc.devRef .tc main_arg1) := (U3_arr m c 0).trans (((dat1 (In1 m) c).arrAt_in 0 rfl _).trans (A_eq1 (In1 m) c 0))
    _ = U1 m c (Proc.devRef .tc main_arg1) := U2_of_ne m c main_arg1 (by decide)
    _ = U0 m c (Proc.devRef .tc main_arg1) := U1_of m c main_arg1 (by decide)
    _ = m ((c : Thread nD τ).loc main_arg1) := rfl

theorem U3_main_arg2 (c : Dev nD) : U3 m c (Proc.devRef .tc main_arg2) = m ((c : Thread nD τ).loc main_arg2) :=
  calc U3 m c (Proc.devRef .tc main_arg2)
    _ = U2 m c (Proc.devRef .tc main_arg2) := U3_of_ne m c main_arg2 (by decide)
    _ = U1 m c (Proc.devRef .tc main_arg2) := (U2_arr m c 1).trans (((dat0 (In0 m) c).arrAt_in 1 rfl _).trans (A_eq0 (In0 m) c 1))
    _ = U0 m c (Proc.devRef .tc main_arg2) := U1_of m c main_arg2 (by decide)
    _ = m ((c : Thread nD τ).loc main_arg2) := rfl

theorem U3_main_arg3 (c : Dev nD) : U3 m c (Proc.devRef .tc main_arg3) = m ((c : Thread nD τ).loc main_arg3) :=
  calc U3 m c (Proc.devRef .tc main_arg3)
    _ = U2 m c (Proc.devRef .tc main_arg3) := U3_of_ne m c main_arg3 (by decide)
    _ = U1 m c (Proc.devRef .tc main_arg3) := U2_of_ne m c main_arg3 (by decide)
    _ = U0 m c (Proc.devRef .tc main_arg3) := U1_of m c main_arg3 (by decide)
    _ = m ((c : Thread nD τ).loc main_arg3) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (In0 m) c
  | ⟨1, _⟩ => fun c => dat1 (In1 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
/-- The host reshape as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (U3 m c) ∗ ∃ r, prngReg c r)

/-! ## The two kernels as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (In0 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (In0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (In0 m c) (In1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (In1 m) c).loose
  hwaits := Pipeline.hwaits_of_owed_zero _ _ _ _ L lv 1 fun _ _ => rfl
  pre c := iprop(StableHlo.held (c : Thread nD τ) (Pipeline.ucRefs τ sig) (U2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (In1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (In1 m) c
    rw [show (pdats m 1 c).Φ 0 = (dat1 (In1 m) c).Φ 0 from rfl]
    iintro ⟨Hp, -, Hr⟩
    iapply h
    unfold Pipeline.ΦA
    isplitl [Hr]; · iexact Hr
    iexact Hp
  hout c := by
    have h := hout1 (In1 m) c
    rw [Pipeline.ownSems0_none, show (pdats m 1 c).Φ (Fin.last _) = (dat1 (In1 m) c).Φ (Fin.last cfg1.N) from rfl]
    iintro HΦ
    ihave H := h $$ HΦ
    unfold Pipeline.ΦA
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (In1 m c) (Out m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (U0 m)),
    .region (reg0 m),
    .region (reg1 m) ]

theorem main_run (c : Dev nD) : main (F := F) c = Pipeline.Seg.run (segs m) := (main_chain c).trans (by chain_rfl)

set_option backward.isDefEq.respectTransparency.types false in
/-- From any memory with zero counters every weakly fair execution of the program terminates, nothing faulting, with
    every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U3 m c b)
    (hfin := fun c s' => by
      iintro ⟨⟨Hh, -⟩, HSI⟩
      unfold StableHlo.held
      imodintro
      iapply (pointsTo_read_all (Pipeline.ucRefs τ sig) (fun b => (((c : Thread nD τ)).1, b)) (U3 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (U3_main_arg0 m c),
     (h c _ (mem_uc main_arg1 (by decide))).trans (U3_main_arg1 m c),
     (h c _ (mem_uc main_arg2 (by decide))).trans (U3_main_arg2 m c),
     (h c _ (mem_uc main_arg3 (by decide))).trans (U3_main_arg3 m c)⟩) (run_all m ρ)

/-- The same run, also naming the result array: what the aggregation kernel's write-backs leave. -/
theorem run_result : θ_run defs (onTc (τ := τ) (main (F := F))) ⟨m, fun _ => 0, ρ⟩ (fun r => ∀ c : Dev nD,
      r.2.mem ((c.tc : Thread nD τ).loc main_v2) = (dat1 (In1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v2 (by decide))).trans (U3_arr m c 2),
     (h c _ (mem_uc main_arg0 (by decide))).trans (U3_main_arg0 m c),
     (h c _ (mem_uc main_arg1 (by decide))).trans (U3_main_arg1 m c),
     (h c _ (mem_uc main_arg2 (by decide))).trans (U3_main_arg2 m c),
     (h c _ (mem_uc main_arg3 (by decide))).trans (U3_main_arg3 m c)⟩) (run_all m ρ)

end Cert.Kernel.Hand

end
-- ==== Proof.KI.Region0.lean ====
import proofs.«147028_j60885456388981_1_alg».proof.Proof.Gen.KernelIdeal.Launch
import proofs.«147028_j60885456388981_1_alg».proof.Proof.Gen.KernelIdeal.Skeleton
import proofs.«147028_j60885456388981_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The projection region: h = x W + b, one row block at a time

The first region walks the 8 row blocks of `x` (2048 rows each). At block `t` it sees
rows `2048 t … 2048 t + 2047` of `x`, the whole of `W`, the whole of the bias row `b`, and writes
rows `2048 t … 2048 t + 2047` of `h`. Nothing is carried from one block to the next: the block of `h`
written at `t` is a function of the three input blocks seen at `t` alone.

This file states that fact for whatever the arrays hold when the region is entered (`V`):

* `iblk0 V c w t`  — the block of window `w` at step `t`, read off the array as the region finds it;
* `out0_3 x0 x1 x2` — the output block as a function of the three input blocks: the single value the
  body computes, laid over the whole output block;
* `dat0 V c` — the bookkeeping of the walk: after step `t` the three input buffers still hold their
  blocks and the output buffer holds `out0_3` of them;
* `body_obligation0` — one step of the walk does exactly that.

Everything is stated for an arbitrary arithmetic of floats: no property of addition or multiplication
is used, only which value is stored where.
-/

-- deciding that a rectangle of 2048 × 256 cells is the whole block recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- what every array holds when the region is entered
variable (V : (c : Dev nD) → (b : Ref sig .tc) → Buf (Elt F) ((c : Thread nD τ).loc b))

/-! ## The blocks the region sees -/

/-- The block of window `w` at step `t`: the rows (and columns) of the window's array that step `t`
    looks at, as the array stands when the region is entered. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer of `x` holds the row block of step `t` when step `t` begins. The block index moves at every
    step, so the block is brought in afresh each time; what was brought in is the block of the array. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The buffer of `W` holds all of `W` when any step begins. `W` is brought in once, before the first
    step; at a later step nothing is brought in, but the block index (always the origin) has not moved and
    the step before left the buffer as it found it, so it still holds the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The buffer of the bias row holds the bias row when any step begins, for the same reason. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## Where the body reads and writes: each buffer, whole -/

abbrev r0_0 : Rect S2048x256 := Rect.unit (s := S2048x256) ![0, 0] S2048x256.size inb_S2048x256_S2048x256_0_0
abbrev r0_1 : Rect S256x64 := Rect.unit (s := S256x64) ![0, 0] S256x64.size inb_S256x64_S256x64_0_0
abbrev r0_2 : Rect S1x64 := Rect.unit (s := S1x64) ![0, 0] S1x64.size inb_S1x64_S1x64_0_0
abbrev r0_3 : Rect S2048x64 := Rect.unit (s := S2048x64) ![0, 0] S2048x64.size inb_S2048x64_S2048x64_0_0

/-! ## The output block as a function of the input blocks -/

/-- What one step leaves in the output buffer, given the three input blocks: the one value the body
    computes from them (`k0_pay1`: the product of the first two plus the third, row by row), written over
    the whole buffer. -/
def out0_3 (x0 : Vec F S2048x256 .f32) (x1 : Vec F S256x64 .f32) (x2 : Vec F S1x64 .f32) : Vec F S2048x64 .f32 :=
  View.canon [⟨r0_3, k0_pay1 (View.ld x0 r0_0) (View.ld x1 r0_1) (View.ld x2 r0_2)⟩]

/-- The one write covers every cell of the output buffer: its rectangle starts at the origin and has the
    buffer's own extents. -/
theorem cover0_3 (p0 : Vec F S2048x64 .f32) (y : S2048x64.Idx) :
    ∃ pc ∈ ([⟨r0_3, p0⟩] : List (View.Piece (Elt F) S2048x64 .f32)), y ∈ pc.1.set :=
  View.cover_of_tiled [⟨r0_3, p0⟩] S2048x64.size (by rfl) y

/-! ## One run of the body -/

set_option maxHeartbeats 1000000 in
/-- The body, run on three input buffers holding `x0`, `x1`, `x2` and an output buffer holding anything,
    ends with the inputs untouched and the output buffer holding `out0_3 x0 x1 x2`. It reads the three
    inputs whole, reads the output buffer too (and discards what it read), computes, and writes the
    result over the whole output buffer; since that write covers the buffer, what was there before —
    the discarded read included — does not matter. The grid coordinate `i` is never looked at. -/
theorem sound_kernel0 (c : Dev nD) (E : Set ℕ) (i : grid0.Coords)
    (arg1 : Memref sig .tc .vmem S2048x256 .f32) (harg1 : arg1.IsWhole)
    (arg2 : Memref sig .tc .vmem S256x64 .f32) (harg2 : arg2.IsWhole)
    (arg3 : Memref sig .tc .vmem S1x64 .f32) (harg3 : arg3.IsWhole)
    (arg4 : Memref sig .tc .vmem S2048x64 .f32) (harg4 : arg4.IsWhole)
    (x0 : Vec F S2048x256 .f32) (x1 : Vec F S256x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__project_kernel i arg1 harg1 arg2 harg2 arg3 harg3 arg4 harg4) K := by
  simp only [cc0__project_kernel_eq_skeleton]; unfold cc0__project_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The bookkeeping of the walk -/

/-- The walk's bookkeeping on core `c`: the arrays are as the region finds them; after step `t` each
    input buffer holds its block of step `t` and the output buffer holds `out0_3` of the three; nothing
    else the core owns is touched, and no write is left pending. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The bookkeeping's arrays are the entry contents. -/
theorem A_eq0 (c : Dev nD) (w : Fin cfg0.W) : (dat0 V c).A w = V c (Pipeline.arrRef spec0 w) := by
  dsimp only [dat0]

/-- What each buffer holds after step `t`, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- What each input buffer holds when step `t` begins: its block of step `t`. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## One step of the walk -/

/-- What the core owns when the body is called at step `t`: the untouched rest, nothing pending, and the
    four current buffers at their contents before the step. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it owns when the body returns: the same, the four buffers at their contents after the step. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at step `t`: the three input buffers hold their blocks (`before0_W`), the output buffer holds
    something, so one run of the body (`sound_kernel0`) leaves the inputs as they were and the output at
    `out0_3` of the blocks; the rest of what the core owns passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- Every step of the walk does what the bookkeeping says. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1Shared.lean ====
/-
  The aggregation kernel (the second pallas_call), at the buffer contents V it is entered from: what its runs share.

  The grid is 16 x 8: point t is row block t / 8 (1024 rows of adj and of the result) and column block t % 8 (2048
  columns of adj, equally 2048 rows of the projected features h). The body keeps a 1024 x 64 accumulator in a scratch
  buffer across the eight column blocks of a row block: it is reset where t % 8 = 0, the product of the two tiles is
  added at every point, and where t % 8 = 7 the ramp of the accumulator is stored into the output block. So the body's two
  conditions, read off the grid coordinates, are "t % 8 = 0" and "t % 8 = 7", and there are three cases:
    A  (t % 8 = 0)      the accumulator is reset and the first product added; nothing is stored into the output;
    B  (0 < t % 8 < 7)  a product is added to what the point before left; nothing is stored into the output;
    C  (t % 8 = 7)      the last product is added and the ramp of the sum is stored into the output block.
  At the points of cases A and B the output window is idle and is not written back.
-/
import proofs.«147028_j60885456388981_1_alg».proof.Proof.Gen.KernelIdeal.Launch
import proofs.«147028_j60885456388981_1_alg».proof.Proof.Gen.KernelIdeal.Skeleton
import proofs.«147028_j60885456388981_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of adj is in its staging buffer at every point: it is fetched at every point, and the body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The tile of the projected features likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the grid -/

/-- "This is the first column block": the body's first condition as it computes it from the column-block coordinate. -/
abbrev cond1_0 (i : grid1.Coords) : Prop := (Scalar.cmpi .ne (Scalar.extui (Scalar.cmpi .eq (BitVec.ofNat 32 (i 1).val) 0#32)) 0#32) = 1#1
/-- It holds exactly where t % 8 = 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last column block": the body's second condition. -/
abbrev cond1_1 (i : grid1.Coords) : Prop := k1_cond2 i = 1#1
/-- It holds exactly where t % 8 = 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Off the last column block nothing is stored into the output block, and it is not written back there. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- On the last column block the output block is stored. -/
theorem liveAt1_2 : ∀ t : Fin cfg1.N, cond1_1 (grid1.coords t) → cfg1.idle 2 (grid1.coords t) = false := by decide +kernel

/-! ## The memrefs the body is called with -/

/-- One staging buffer of the output window, through which its contents are stated (the choice does not matter). -/
abbrev VO1_2 : View sig .tc .vmem S1024x64 .f32 := (Memref.whole cc1_stg2_0 : Memref sig .tc .vmem S1024x64 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1024x64 .f32 := Memref.whole cc1_scratch0
abbrev VS1_0 : View sig .tc .vmem S1024x64 .f32 := scM1_0.view

end Cert.KernelIdeal.Hand

end
-- ==== Proof.KI.R1RunA.lean ====
/-
  The aggregation kernel's body on the first column block of a row block (case A: t % 8 = 0).
  Given the tile of adj and the tile of the projected features in their buffers, the output buffer at any contents (it
  is handed back untouched) and the accumulator at any contents, the body runs to the end leaving the two tiles as they
  were and the accumulator written by its stores: first the zero array, then the sum of what it then holds and the
  product of the two tiles. The list of pieces the accumulator ends with is found by running the body.
-/
import proofs.«147028_j60885456388981_1_alg».proof.Proof.KI.R1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- Case A's run: the pieces the accumulator ends with, and the body's triple. -/
noncomputable def kernelRun1_A (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond1_0 i) (hc1 : ¬cond1_1 i)
    (x0 : Vec F S1024x2048 .f32) (x1 : Vec F S2048x64 .f32) :
    { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__agg_kernel i arg2 harg2 arg3 harg3 arg4 harg4 arg5 harg5) K } := by
  refine ⟨?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.R1RunB.lean ====
/-
  The aggregation kernel's body on a middle column block (case B: 0 < t % 8 < 7).
  The accumulator holds what the point before left; the body adds the product of the two tiles to it and stores the sum
  back. Nothing is stored into the output buffer, which is handed back untouched.
-/
import proofs.«147028_j60885456388981_1_alg».proof.Proof.KI.R1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- Case B's run: the pieces the accumulator ends with, and the body's triple. -/
noncomputable def kernelRun1_B (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : ¬cond1_1 i)
    (x0 : Vec F S1024x2048 .f32) (x1 : Vec F S2048x64 .f32) (xs0 : Vec F S1024x64 .f32) :
    { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__agg_kernel i arg2 harg2 arg3 harg3 arg4 harg4 arg5 harg5) K } := by
  refine ⟨?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.R1RunC.lean ====
/-
  The aggregation kernel's body on the last column block (case C: t % 8 = 7).
  The accumulator holds what the point before left; the body adds the last product, stores the sum back, reads it again
  and stores its ramp (the entrywise maximum with zero) into the output buffer, whatever that held.
-/
import proofs.«147028_j60885456388981_1_alg».proof.Proof.KI.R1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- Case C's run: the pieces the output buffer and the accumulator end with, and the body's triple. -/
noncomputable def kernelRun1_C (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i)
    (x0 : Vec F S1024x2048 .f32) (x1 : Vec F S2048x64 .f32) (xs0 : Vec F S1024x64 .f32) :
    Σ' (L2 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__agg_kernel i arg2 harg2 arg3 harg3 arg4 harg4 arg5 harg5) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Region1.lean ====
/-
  The aggregation kernel (the second pallas_call) at the buffer contents V it is entered from: what its accumulator and
  its output block hold after every grid point, the pipeline's proof data, and the body's obligation at every point.

  Write t for a grid point, t / 8 its row block and t % 8 its column block. After point t the accumulator holds
    acc t = (zeros + product t)           where t % 8 = 0  (the first column block resets it),
    acc t = acc (t - 1) + product t       elsewhere,
  "product t" being the 1024 x 64 product of the point's tile of adj with its tile of the projected features; and where
  t % 8 = 7 the output block is the ramp of acc t. These are the terms the body's runs found, read back; the invariant
  the pipeline carries from point to point says the accumulator's buffer holds acc t after point t (and anything before
  the first point), beside the buffers the kernel never touches.
-/
import proofs.«147028_j60885456388981_1_alg».proof.Proof.KI.R1RunA
import proofs.«147028_j60885456388981_1_alg».proof.Proof.KI.R1RunB
import proofs.«147028_j60885456388981_1_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's stores into the accumulator cover it. -/
theorem scover1_A (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond1_0 i) (hc1 : ¬cond1_1 i)
    (x0 : Vec F S1024x2048 .f32) (x1 : Vec F S2048x64 .f32) (y : S1024x64.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S1024x64.size (by sl_kernel_rfl) y

/-- What case A leaves in the accumulator: its stores read back. -/
def sout1_A (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond1_0 i) (hc1 : ¬cond1_1 i)
    (x0 : Vec F S1024x2048 .f32) (x1 : Vec F S2048x64 .f32) : Vec F S1024x64 .f32 :=
  VS1_0.read (Elt F) (VS1_0.writes (Elt F) VS1_0.junk (kernelRun1_A c i arg2 harg2 arg3 harg3 arg4 harg4 arg5 harg5 hc0 hc1 x0 x1).1)

/-- Case B's store into the accumulator covers it. -/
theorem scover1_B (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : ¬cond1_1 i)
    (x0 : Vec F S1024x2048 .f32) (x1 : Vec F S2048x64 .f32) (xs0 : Vec F S1024x64 .f32) (y : S1024x64.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S1024x64.size (by sl_kernel_rfl) y

/-- What case B leaves in the accumulator. -/
def sout1_B (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : ¬cond1_1 i)
    (x0 : Vec F S1024x2048 .f32) (x1 : Vec F S2048x64 .f32) (xs0 : Vec F S1024x64 .f32) : Vec F S1024x64 .f32 :=
  VS1_0.read (Elt F) (VS1_0.writes (Elt F) VS1_0.junk (kernelRun1_B c i arg2 harg2 arg3 harg3 arg4 harg4 arg5 harg5 hc0 hc1 x0 x1 xs0).1)

/-- Case C's store into the output block covers it. -/
theorem cover1_C_2 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i)
    (x0 : Vec F S1024x2048 .f32) (x1 : Vec F S2048x64 .f32) (xs0 : Vec F S1024x64 .f32) (y : S1024x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x64.size (by sl_kernel_rfl) y

/-- What case C leaves in the output block. -/
def out1_C_2 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i)
    (x0 : Vec F S1024x2048 .f32) (x1 : Vec F S2048x64 .f32) (xs0 : Vec F S1024x64 .f32) : Vec F S1024x64 .f32 :=
  VO1_2.read (Elt F) (VO1_2.writes (Elt F) VO1_2.junk (kernelRun1_C c i arg2 harg2 arg3 harg3 arg4 harg4 arg5 harg5 hc0 hc1 x0 x1 xs0).1)

/-- Case C's store into the accumulator covers it. -/
theorem scover1_C (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i)
    (x0 : Vec F S1024x2048 .f32) (x1 : Vec F S2048x64 .f32) (xs0 : Vec F S1024x64 .f32) (y : S1024x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x64.size (by sl_kernel_rfl) y

/-- What case C leaves in the accumulator. -/
def sout1_C (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i)
    (x0 : Vec F S1024x2048 .f32) (x1 : Vec F S2048x64 .f32) (xs0 : Vec F S1024x64 .f32) : Vec F S1024x64 .f32 :=
  VS1_0.read (Elt F) (VS1_0.writes (Elt F) VS1_0.junk (kernelRun1_C c i arg2 harg2 arg3 harg3 arg4 harg4 arg5 harg5 hc0 hc1 x0 x1 xs0).2.1)

/-! ## The cases at a grid point -/

/-- The accumulator after a point on the first column block. -/
def accA (c : Dev nD) (t : Fin cfg1.N) (h0 : t.val % 8 = 0) (h1 : ¬t.val % 8 = 7) : Vec F S1024x64 .f32 :=
  sout1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)
/-- The accumulator after a point on a middle column block, from what the point before left. -/
def accB (c : Dev nD) (t : Fin cfg1.N) (h0 : ¬t.val % 8 = 0) (h1 : ¬t.val % 8 = 7) (xs : Vec F S1024x64 .f32) : Vec F S1024x64 .f32 :=
  sout1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) xs
/-- The accumulator after a point on the last column block, from what the point before left. -/
def accC (c : Dev nD) (t : Fin cfg1.N) (h0 : ¬t.val % 8 = 0) (h1 : t.val % 8 = 7) (xs : Vec F S1024x64 .f32) : Vec F S1024x64 .f32 :=
  sout1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) xs
/-- The output block after a point on the last column block. -/
def outC (c : Dev nD) (t : Fin cfg1.N) (h0 : ¬t.val % 8 = 0) (h1 : t.val % 8 = 7) (xs : Vec F S1024x64 .f32) : Vec F S1024x64 .f32 :=
  out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) xs

/-- A stand-in for the output block at the points that store nothing into it: nothing consults it, since the block is
    neither written back there nor read at the next point. -/
def idleOut : Vec F S1024x64 .f32 := VO1_2.read (Elt F) VO1_2.junk

/-! ## What the output block and the accumulator hold after each point -/

/-- The pair (output block, accumulator) after point n, by recursion on n. -/
def outsAt1 (c : Dev nD) : (n : ℕ) → n < cfg1.N → Vec F S1024x64 .f32 × Vec F S1024x64 .f32
  | 0, hn => (idleOut, accA V c ⟨0, hn⟩ (Nat.zero_mod _) (fun h : 0 % 8 = 7 => absurd h (by decide)))
  | n + 1, hn =>
    if h0 : (n + 1) % 8 = 0 then
      (idleOut, accA V c ⟨n + 1, hn⟩ h0 (fun h : (n + 1) % 8 = 7 => by omega))
    else
      if h1 : (n + 1) % 8 = 7 then
        (outC V c ⟨n + 1, hn⟩ h0 h1 (outsAt1 c n (Nat.lt_of_succ_lt hn)).2, accC V c ⟨n + 1, hn⟩ h0 h1 (outsAt1 c n (Nat.lt_of_succ_lt hn)).2)
      else
        (idleOut, accB V c ⟨n + 1, hn⟩ h0 h1 (outsAt1 c n (Nat.lt_of_succ_lt hn)).2)

theorem outsAt1_A (c : Dev nD) (t : Fin cfg1.N) (h0 : t.val % 8 = 0) (h1 : ¬t.val % 8 = 7) :
    outsAt1 V c t.val t.isLt = (idleOut, accA V c t h0 h1) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = (idleOut, accB V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (outC V c t h0 h1 (outsAt1 V c (t.val - 1) (Nat.lt_of_le_of_lt (Nat.sub_le _ _) t.isLt)).2,
      accC V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant carried from point to point -/

/-- The scoped buffers this kernel never touches (the other kernel's staging buffers), each whole at some contents. -/
def restS1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The accumulator's buffer before point n: at anything before the first point, afterwards at what point n - 1 left. -/
def accS (c : Dev nD) : (n : ℕ) → n ≤ cfg1.N → sProp 𝕄
  | 0, _ => iprop(∃ d, owns (c : Thread nD τ) scM1_0 fullShare d)
  | n + 1, hn => owns (c : Thread nD τ) scM1_0 fullShare (outsAt1 V c n hn).2

theorem accS_succ (c : Dev nD) (n : ℕ) (hn : n < cfg1.N) :
    accS V c (n + 1) hn = owns (c : Thread nD τ) scM1_0 fullShare (outsAt1 V c n hn).2 := rfl

theorem accS_pos (c : Dev nD) (n : ℕ) (h : n ≤ cfg1.N) (hz : n ≠ 0) :
    accS V c n h = owns (c : Thread nD τ) scM1_0 fullShare (outsAt1 V c (n - 1) (by omega)).2 := by
  cases n with
  | zero => exact absurd rfl hz
  | succ n => rfl

/-- Whatever the point, the accumulator's buffer is whole at some contents. -/
theorem accS_any (c : Dev nD) (n : ℕ) (h : n ≤ cfg1.N) :
    accS V c n h ⊢ iprop(∃ d, owns (c : Thread nD τ) scM1_0 fullShare d) := by
  cases n with
  | zero => exact Idealize.SL.BI.Entails.refl _
  | succ n => rw [accS_succ]; iintro H; iexists _; iexact H

/-- The invariant before point n: the untouched scoped buffers, the accumulator, the generator register at some state. -/
def PhiS (c : Dev nD) (n : ℕ) (h : n ≤ cfg1.N) : sProp 𝕄 :=
  iprop((restS1 c ∗ accS V c n h) ∗ ∃ r, prngReg c r)

/-- What the launch hands the region is that invariant with the accumulator at anything. -/
theorem PhiA1_split (c : Dev nD) :
    (Pipeline.ΦA spec1 c : sProp 𝕄) ⊢ iprop((restS1 c ∗ ∃ d, owns (c : Thread nD τ) scM1_0 fullShare d) ∗ ∃ r, prngReg c r) := by
  unfold Pipeline.ΦA restS1; rw [scopedRest1_eq]; simp only [scM1_0, owns_whole]
  iintro ⟨⟨Ha, Hb, Hc, Hd, He, Hf, HS⟩, Hg⟩
  isplitl [Ha Hb Hc Hd He Hf HS]
  · isplitl [Ha Hb Hc Hd He Hf]
    · isplitl [Ha]; · iexact Ha
      isplitl [Hb]; · iexact Hb
      isplitl [Hc]; · iexact Hc
      isplitl [Hd]; · iexact Hd
      isplitl [He]; · iexact He
      iexact Hf
    iexact HS
  iexact Hg

/-- And back: forgetting what the accumulator holds. -/
theorem PhiA1_join (c : Dev nD) :
    iprop((restS1 c ∗ ∃ d, owns (c : Thread nD τ) scM1_0 fullShare d) ∗ ∃ r, prngReg c r) ⊢ (Pipeline.ΦA spec1 c : sProp 𝕄) := by
  unfold Pipeline.ΦA restS1; rw [scopedRest1_eq]; simp only [scM1_0, owns_whole]
  iintro ⟨⟨⟨Ha, Hb, Hc, Hd, He, Hf⟩, HS⟩, Hg⟩
  isplitl [Ha Hb Hc Hd He Hf HS]
  · isplitl [Ha]; · iexact Ha
    isplitl [Hb]; · iexact Hb
    isplitl [Hc]; · iexact Hc
    isplitl [Hd]; · iexact Hd
    isplitl [He]; · iexact He
    isplitl [Hf]; · iexact Hf
    iexact HS
  iexact Hg

/-! ## The pipeline's proof data -/

/-- The arrays as the region finds them; after the body at point t the two tiles in place and the output block at what
    the recursion says; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Cert.KernelIdeal.Hand

end
-- ==== Proof.KI.Region1Body.lean ====
/-
  The aggregation kernel's body obligation: at every grid point, from the invariant before the point and the windows'
  buffers at what the pipeline staged, the body runs to the invariant after the point and the buffers at what the proof
  data say. The point's column block t % 8 decides the case: on the first the accumulator is reset (so whatever it held
  is irrelevant), on the others it holds what the point before left; on the last the output block is stored, elsewhere
  it is handed back as it came.
-/
import proofs.«147028_j60885456388981_1_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_castSucc V c t]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  unfold PhiS
  rw [accS_succ]
  have hN : t.val < 128 := lt_of_lt_of_eq t.isLt (show cfg1.N = 128 from N_1)
  by_cases h1 : t.val % 8 = 7
  · -- the last column block: the accumulator holds what the point before left; the output block is stored
    have h0 : ¬t.val % 8 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [outsAt1_C V c t h0 h1, accS_pos V c _ _ hz]
    unfold outC accC out1_C_2 sout1_C; (try dsimp only)
    iintro ⟨⟨⟨HR, HS0⟩, Hg⟩, Ho, ⟨%d0, H0⟩, ⟨%d1, H1⟩, ⟨%d2, H2⟩⟩
    iapply ((kernelRun1_C c (grid1.coords t) _ _ _ _ _ _ _ _ (fun h => h0 ((hcond1_0 t).mp h)) ((hcond1_1 t).mpr h1) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HR HS0 Hg]
    · isplitl [HR HS0]
      · isplitl [HR]; · iexact HR
        unfold owns; iexists _; isplitr
        swap; · iexact HS0
        ipureintro; exact View.read_writes_of_cover _ _ _ _ _ (scover1_C c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_C_2 c _ _ _ _ _ _ _ _ _ _ _ _ _ _)
  · rw [Dat.leavesExact_idle (dat1 V c) 2 t (idleAt1_2 t (fun h => h1 ((hcond1_1 t).mp h))) (noFlush1_2 t (fun h => h1 ((hcond1_1 t).mp h)))]
    by_cases h0 : t.val % 8 = 0
    · -- the first column block: the accumulator is reset, so whatever it held is given up
      rw [outsAt1_A V c t h0 h1]
      unfold accA sout1_A; (try dsimp only)
      iintro ⟨⟨⟨HR, HS0⟩, Hg⟩, Ho, ⟨%d0, H0⟩, ⟨%d1, H1⟩, ⟨%d2, H2⟩⟩
      ihave HS0' := (accS_any V c _ _) $$ HS0
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0']; · iexact HS0'
      iintro ⟨H0, H1, H2, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
    · -- a middle column block: the accumulator holds what the point before left
      have hz : t.val ≠ 0 := by omega
      rw [outsAt1_B V c t h0 h1, accS_pos V c _ _ hz]
      unfold accB sout1_B; (try dsimp only)
      iintro ⟨⟨⟨HR, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl]
  exact PhiA1_split c

/-- Before any point the invariant gives back what the launch handed over: what the accumulator holds is forgotten. -/
theorem PhiS_forget (c : Dev nD) (n : ℕ) (h : n ≤ cfg1.N) : PhiS V c n h ⊢ (Pipeline.ΦA spec1 c : sProp 𝕄) := by
  unfold PhiS
  iintro ⟨⟨HR, HS0⟩, Hg⟩
  iapply (PhiA1_join c)
  isplitl [HR HS0]
  · isplitl [HR]; · iexact HR
    iapply (accS_any V c _ _); iexact HS0
  iexact Hg

/-- In particular after the last point. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl]
  exact PhiS_forget V c _ _

end Cert.KernelIdeal.Hand

end
-- ==== Proof.KI.Run.lean ====
/-
  The whole program's run: a reshape of the bias on the host, the projection kernel, the aggregation kernel.

  The buffers' contents are followed from boundary to boundary: U0 at launch; U1 after the host reshape; U2 after the
  projection kernel (its output array at what its write-backs leave, every other buffer as before); U3 after the
  aggregation kernel likewise. Each kernel region is entered from "every unscoped buffer holds the boundary's contents"
  and left at the same statement for the next boundary; beside it ride the generator register and the fact that the
  core owes nothing. The run's post names every unscoped buffer at U3, from which both the frame (the argument arrays end
  as launched: no kernel writes an input, the host writes only the reshaped bias) and the result array are read.
-/
import proofs.«147028_j60885456388981_1_alg».proof.Proof.KI.Region0
import proofs.«147028_j60885456388981_1_alg».proof.Proof.KI.Region1Body
import proofs.«147028_j60885456388981_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev U0 : Dev nD → Valuation τ sig (Elt F) := fun c b => m (c, b)
/-- After the host reshape of the bias (the projection kernel's entry). -/
abbrev U1 : Dev nD → Valuation τ sig (Elt F) := fun c => StableHlo.after hostOps0 (U0 m c)
/-- The same read at the TensorCore's references. -/
abbrev In0 : (c : Dev nD) → (b : Ref sig .tc) → Buf (Elt F) ((c : Thread nD τ).loc b) := fun c b => U1 m c b
/-- After the projection kernel: its arrays at what the pipeline leaves, every other buffer as entered. -/
def U2 (c : Dev nD) : Valuation τ sig (Elt F) :=
  Pipeline.withArrays spec0 c (U1 m c) fun w => (dat0 (In0 m) c).arrAt w cfg0.N
theorem U2_arr (c : Dev nD) (w : Fin cfg0.W) :
    U2 m c (Proc.devRef .tc (Pipeline.arrRef spec0 w)) = (dat0 (In0 m) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m c (Proc.devRef .tc b) = U1 m c (Proc.devRef .tc b) := by
  unfold U2; exact Pipeline.withArrays_of_ne spec0 c _ _ b hb
/-- The same read at the TensorCore's references (the aggregation kernel's entry). -/
abbrev In1 : (c : Dev nD) → (b : Ref sig .tc) → Buf (Elt F) ((c : Thread nD τ).loc b) := fun c b => U2 m c b
theorem hF0 (c : Dev nD) (w : Fin cfg0.W) : (dat0 (In0 m) c).arrAt w cfg0.N = In1 m c (Pipeline.arrRef spec0 w) :=
  (U2_arr m c w).symm
theorem hrest0 (c : Dev nD) : ∀ b, b ∉ Finset.univ.image (Pipeline.arrRef spec0) → In1 m c b = In0 m c b :=
  fun b hb => U2_of_ne m c b fun w e => hb (Finset.mem_image.mpr ⟨w, Finset.mem_univ _, e⟩)

/-- After the aggregation kernel. -/
def U3 (c : Dev nD) : Valuation τ sig (Elt F) :=
  Pipeline.withArrays spec1 c (U2 m c) fun w => (dat1 (In1 m) c).arrAt w cfg1.N
theorem U3_arr (c : Dev nD) (w : Fin cfg1.W) :
    U3 m c (Proc.devRef .tc (Pipeline.arrRef spec1 w)) = (dat1 (In1 m) c).arrAt w cfg1.N := by
  unfold U3; exact Pipeline.withArrays_arr spec1 launch1.win.arr_inj c _ _ w
theorem U3_of_ne (c : Dev nD) (b : Ref sig .tc) (hb : ∀ w, Pipeline.arrRef spec1 w ≠ b) :
    U3 m c (Proc.devRef .tc b) = U2 m c (Proc.devRef .tc b) := by
  unfold U3; exact Pipeline.withArrays_of_ne spec1 c _ _ b hb
abbrev Out : (c : Dev nD) → (b : Ref sig .tc) → Buf (Elt F) ((c : Thread nD τ).loc b) := fun c b => U3 m c b
theorem hF1 (c : Dev nD) (w : Fin cfg1.W) : (dat1 (In1 m) c).arrAt w cfg1.N = Out m c (Pipeline.arrRef spec1 w) :=
  (U3_arr m c w).symm
theorem hrest1 (c : Dev nD) : ∀ b, b ∉ Finset.univ.image (Pipeline.arrRef spec1) → Out m c b = In1 m c b :=
  fun b hb => U3_of_ne m c b fun w e => hb (Finset.mem_image.mpr ⟨w, Finset.mem_univ _, e⟩)

/-! ## The argument arrays end as launched -/

/-- The host reshape writes only the reshaped bias. -/
theorem U1_of (c : Dev nD) (r : Ref sig .tc) (h : r ∉ hostOps0_W) : U1 m c r = U0 m c r := V1_of m c r h

theorem U3_main_arg0 (c : Dev nD) : U3 m c (Proc.devRef .tc main_arg0) = m ((c : Thread nD τ).loc main_arg0) :=
  calc U3 m c (Proc.devRef .tc main_arg0)
    _ = U2 m c (Proc.devRef .tc main_arg0) := U3_of_ne m c main_arg0 (by decide)
    _ = U1 m c (Proc.devRef .tc main_arg0) := (U2_arr m c 0).trans (((dat0 (In0 m) c).arrAt_in 0 rfl _).trans (A_eq0 (In0 m) c 0))
    _ = U0 m c (Proc.devRef .tc main_arg0) := U1_of m c main_arg0 (by decide)
    _ = m ((c : Thread nD τ).loc main_arg0) := rfl

theorem U3_main_arg1 (c : Dev nD) : U3 m c (Proc.devRef .tc main_arg1) = m ((c : Thread nD τ).loc main_arg1) :=
  calc U3 m c (Proc.devRef .tc main_arg1)
    _ = U2 m c (Proc.devRef .tc main_arg1) := (U3_arr m c 0).trans (((dat1 (In1 m) c).arrAt_in 0 rfl _).trans (A_eq1 (In1 m) c 0))
    _ = U1 m c (Proc.devRef .tc main_arg1) := U2_of_ne m c main_arg1 (by decide)
    _ = U0 m c (Proc.devRef .tc main_arg1) := U1_of m c main_arg1 (by decide)
    _ = m ((c : Thread nD τ).loc main_arg1) := rfl

theorem U3_main_arg2 (c : Dev nD) : U3 m c (Proc.devRef .tc main_arg2) = m ((c : Thread nD τ).loc main_arg2) :=
  calc U3 m c (Proc.devRef .tc main_arg2)
    _ = U2 m c (Proc.devRef .tc main_arg2) := U3_of_ne m c main_arg2 (by decide)
    _ = U1 m c (Proc.devRef .tc main_arg2) := (U2_arr m c 1).trans (((dat0 (In0 m) c).arrAt_in 1 rfl _).trans (A_eq0 (In0 m) c 1))
    _ = U0 m c (Proc.devRef .tc main_arg2) := U1_of m c main_arg2 (by decide)
    _ = m ((c : Thread nD τ).loc main_arg2) := rfl

theorem U3_main_arg3 (c : Dev nD) : U3 m c (Proc.devRef .tc main_arg3) = m ((c : Thread nD τ).loc main_arg3) :=
  calc U3 m c (Proc.devRef .tc main_arg3)
    _ = U2 m c (Proc.devRef .tc main_arg3) := U3_of_ne m c main_arg3 (by decide)
    _ = U1 m c (Proc.devRef .tc main_arg3) := U2_of_ne m c main_arg3 (by decide)
    _ = U0 m c (Proc.devRef .tc main_arg3) := U1_of m c main_arg3 (by decide)
    _ = m ((c : Thread nD τ).loc main_arg3) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (In0 m) c
  | ⟨1, _⟩ => fun c => dat1 (In1 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
/-- The host reshape as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (U3 m c) ∗ ∃ r, prngReg c r)

/-! ## The two kernels as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (In0 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (In0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (In0 m c) (In1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (In1 m) c).loose
  hwaits := Pipeline.hwaits_of_owed_zero _ _ _ _ L lv 1 fun _ _ => rfl
  pre c := iprop(StableHlo.held (c : Thread nD τ) (Pipeline.ucRefs τ sig) (U2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (In1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (In1 m) c
    rw [show (pdats m 1 c).Φ 0 = (dat1 (In1 m) c).Φ 0 from rfl]
    iintro ⟨Hp, -, Hr⟩
    iapply h
    unfold Pipeline.ΦA
    isplitl [Hr]; · iexact Hr
    iexact Hp
  hout c := by
    have h := hout1 (In1 m) c
    rw [Pipeline.ownSems0_none, show (pdats m 1 c).Φ (Fin.last _) = (dat1 (In1 m) c).Φ (Fin.last cfg1.N) from rfl]
    iintro HΦ
    ihave H := h $$ HΦ
    unfold Pipeline.ΦA
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (In1 m c) (Out m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (U0 m)),
    .region (reg0 m),
    .region (reg1 m) ]

theorem main_run (c : Dev nD) : main (F := F) c = Pipeline.Seg.run (segs m) := (main_chain c).trans (by chain_rfl)

set_option backward.isDefEq.respectTransparency.types false in
/-- From any memory with zero counters every weakly fair execution of the program terminates, nothing faulting, with
    every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U3 m c b)
    (hfin := fun c s' => by
      iintro ⟨⟨Hh, -⟩, HSI⟩
      unfold StableHlo.held
      imodintro
      iapply (pointsTo_read_all (Pipeline.ucRefs τ sig) (fun b => (((c : Thread nD τ)).1, b)) (U3 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (U3_main_arg0 m c),
     (h c _ (mem_uc main_arg1 (by decide))).trans (U3_main_arg1 m c),
     (h c _ (mem_uc main_arg2 (by decide))).trans (U3_main_arg2 m c),
     (h c _ (mem_uc main_arg3 (by decide))).trans (U3_main_arg3 m c)⟩) (run_all m ρ)

/-- The same run, also naming the result array: what the aggregation kernel's write-backs leave. -/
theorem run_result : θ_run defs (onTc (τ := τ) (main (F := F))) ⟨m, fun _ => 0, ρ⟩ (fun r => ∀ c : Dev nD,
      r.2.mem ((c.tc : Thread nD τ).loc main_v2) = (dat1 (In1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v2 (by decide))).trans (U3_arr m c 2),
     (h c _ (mem_uc main_arg0 (by decide))).trans (U3_main_arg0 m c),
     (h c _ (mem_uc main_arg1 (by decide))).trans (U3_main_arg1 m c),
     (h c _ (mem_uc main_arg2 (by decide))).trans (U3_main_arg2 m c),
     (h c _ (mem_uc main_arg3 (by decide))).trans (U3_main_arg3 m c)⟩) (run_all m ρ)

end Cert.KernelIdeal.Hand

end
-- ==== Proof.KI.Entry.lean ====
/-
  What the two kernels find in the buffers they read, in terms of the launch memory, at the exact reals.
  The projection kernel finds x and W as launched and the bias reshaped to one row of 64. The aggregation kernel finds adj
  as launched (neither the host reshape nor the projection kernel writes it) and, in the intermediate array, whatever the
  projection kernel's write-backs left there.
-/
import proofs.«147028_j60885456388981_1_alg».proof.Proof.KI.Run
import Idealize.ShloMosaic.Lib.Pipeline.Value
import Idealize.ShloMosaic.Lib.ValueIdx
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

/-- The projection kernel finds x as launched. -/
theorem In0_arg0 (c : Dev nD) : In0 m c main_arg0 = m ((c : Thread nD τ).loc main_arg0) :=
  (U1_of m c main_arg0 (by decide)).trans rfl
/-- And W. -/
theorem In0_arg2 (c : Dev nD) : In0 m c main_arg2 = m ((c : Thread nD τ).loc main_arg2) :=
  (U1_of m c main_arg2 (by decide)).trans rfl
/-- It finds the bias reshaped to a row: entry (0, q) of the reshaped array is entry q of the bias. -/
theorem In0_v0 (c : Dev nD) (q : Fin 64) :
    (In0 m c main_v0 : S1x64.Idx → Elt F .f32) (ix2 0 q) = (m ((c : Thread nD τ).loc main_arg3) : S64.Idx → Elt F .f32) (ix1 q) := by
  have e : (In0 m c main_v0 : S1x64.Idx → Elt F .f32) = shapeCast S1x64 (m ((c : Thread nD τ).loc main_arg3) : S64.Idx → Elt F .f32) shapeCasts_S64_S1x64 := by
    show StableHlo.after hostOps0 (fun b => m (c, b)) (Proc.devRef .tc main_v0) = _
    after_results; rfl
  rw [e]
  refine (shapeCast_addUnit_apply (n := 1) ![64] _ shapeCasts_S64_S1x64 (ix2 0 q)).trans ?_
  exact congrArg _ (funext fun a => by match a with | ⟨0, _⟩ => rfl)

/-- The aggregation kernel finds adj as launched. -/
theorem In1_arg1 (c : Dev nD) : In1 m c main_arg1 = m ((c : Thread nD τ).loc main_arg1) :=
  (U2_of_ne m c main_arg1 (by decide)).trans ((U1_of m c main_arg1 (by decide)).trans rfl)
/-- And in the intermediate array what the projection kernel's write-backs left. -/
theorem In1_v1 (c : Dev nD) : In1 m c main_v1 = (dat0 (In0 m) c).arrAt 3 cfg0.N := U2_arr m c 3

end Cert.KernelIdeal.HandValue

end
-- ==== Proof.KI.Region0Value.lean ====
import proofs.«147028_j60885456388981_1_alg».proof.Proof.KI.Region0
import Idealize.ShloMosaic.Lib.Pipeline.Value
import Idealize.ShloMosaic.Lib.ValueIdx
import Idealize.ShloMosaic.PureOps.Ideal.Laws

/-!
# The projected block, entry by entry

Over the extended reals, the block of `h` that one step of the projection writes is, at row `p` and
column `q` of the block,

    (sum over k < 256 of x0 (p, k) * x1 (k, q)) + x2 (0, q)

where `x0` is the step's 2048 × 256 block of `x`, `x1` is `W` and `x2` is the bias as a 1 × 64 row.
Four remarks make up the proof.

* The body reads each buffer whole and writes the output buffer whole, so the output block IS the
  value the body computes from the three blocks.
* Over the extended reals, narrowing a number to 16 bits changes nothing.
* A matrix product accumulated into a matrix of zeros is, entry by entry, the sum of the products
  along the one contracted axis; that axis has 256 positions, so the sum runs over `k < 256`, the left
  factor sits at `(p, k)` and the right factor at `(k, q)`.
* The 1 × 64 row laid along each of the 2048 rows reads, at `(p, q)`, its entry `(0, q)`; and the sum
  of two matrices is taken entry by entry.
-/

set_option maxRecDepth 16384

noncomputable section

open scoped BigOperators

namespace Cert.KernelIdeal.HandValue

open Cert.KernelIdeal Cert.KernelIdeal.Gen
open Idealize.ShloMosaic Idealize.ShloMosaic.ValueIdx Idealize.SL.Sem

/-! ## The output block is the computed value -/

/-- Reading a buffer through the rectangle that starts at the origin and has the buffer's extents reads
    the buffer; one write through such a rectangle leaves exactly what was written. So the output block
    is the body's value of the three input blocks. True for any arithmetic of floats. -/
theorem out0_3_eq_pay {F : FTy → Type} [FloatOps F]
    (x0 : Vec F S2048x256 .f32) (x1 : Vec F S256x64 .f32) (x2 : Vec F S1x64 .f32) :
    Cert.KernelIdeal.Hand.out0_3 (F := F) x0 x1 x2 = k0_pay1 x0 x1 x2 := by
  have hz0 : (![0, 0] : Fin S2048x256.rank → Nat) = fun _ => 0 := funext fun a => by fin_cases a <;> rfl
  have hz1 : (![0, 0] : Fin S256x64.rank → Nat) = fun _ => 0 := funext fun a => by fin_cases a <;> rfl
  have hz2 : (![0, 0] : Fin S1x64.rank → Nat) = fun _ => 0 := funext fun a => by fin_cases a <;> rfl
  have hz3 : (![0, 0] : Fin S2048x64.rank → Nat) = fun _ => 0 := funext fun a => by fin_cases a <;> rfl
  unfold Cert.KernelIdeal.Hand.out0_3
  rw [View.canon_unit_zero hz3, View.ld_unit_zero hz0, View.ld_unit_zero hz1, View.ld_unit_zero hz2]

/-! ## Where the matrix product looks in its two factors -/

/-- The left factor's row is the output's row … -/
theorem lhs_row (i : S2048x64.Idx) (k : dot_S2048x256_S256x64_S2048x64_1_0_0_1_n_n.contr.Idx) :
    (dot_S2048x256_S256x64_S2048x64_1_0_0_1_n_n.lhsIdx i k 0).val = (i 0).val := by
  unfold DotDims.lhsIdx
  rw [dif_neg (show ¬(0 : Fin S2048x256.rank) ∈ dot_S2048x256_S256x64_S2048x64_1_0_0_1_n_n.lhsBatch by decide),
    dif_pos (show (0 : Fin S2048x256.rank) ∈ dot_S2048x256_S256x64_S2048x64_1_0_0_1_n_n.lhsNonContracting by decide)]
  rfl

/-- … and its column is the summation index. -/
theorem lhs_col (i : S2048x64.Idx) (k : dot_S2048x256_S256x64_S2048x64_1_0_0_1_n_n.contr.Idx) :
    (dot_S2048x256_S256x64_S2048x64_1_0_0_1_n_n.lhsIdx i k 1).val = (k ⟨0, by decide⟩).val :=
  dot_S2048x256_S256x64_S2048x64_1_0_0_1_n_n.lhsIdx_val_of_single rfl i k

/-- The right factor's row is the summation index … -/
theorem rhs_row (i : S2048x64.Idx) (k : dot_S2048x256_S256x64_S2048x64_1_0_0_1_n_n.contr.Idx) :
    (dot_S2048x256_S256x64_S2048x64_1_0_0_1_n_n.rhsIdx i k 0).val = (k ⟨0, by decide⟩).val :=
  dot_S2048x256_S256x64_S2048x64_1_0_0_1_n_n.rhsIdx_val_of_single rfl i k

/-- … and its column is the output's column. -/
theorem rhs_col (i : S2048x64.Idx) (k : dot_S2048x256_S256x64_S2048x64_1_0_0_1_n_n.contr.Idx) :
    (dot_S2048x256_S256x64_S2048x64_1_0_0_1_n_n.rhsIdx i k 1).val = (i 1).val := by
  unfold DotDims.rhsIdx
  rw [dif_neg (show ¬(1 : Fin S256x64.rank) ∈ dot_S2048x256_S256x64_S2048x64_1_0_0_1_n_n.rhsBatch by decide),
    dif_pos (show (1 : Fin S256x64.rank) ∈ dot_S2048x256_S256x64_S2048x64_1_0_0_1_n_n.rhsNonContracting by decide)]
  rfl

/-! ## The product into zeros, at an entry -/

/-- Entry `(p, q)` of the product of `a` (2048 × 256) and `b` (256 × 64) accumulated into zeros is
    `∑ k < 256, a (p, k) * b (k, q)`: the product's own sum runs over the one-axis contraction index,
    which is re-indexed by its single coordinate `k`. -/
theorem matmul_zero_apply {φ₁ φ₂ : FTy} (a : FVec Ideal S2048x256 φ₁) (b : FVec Ideal S256x64 φ₂) (p : Fin 2048) (q : Fin 64) :
    matmul dot_S2048x256_S256x64_S2048x64_1_0_0_1_n_n none a b (constant S2048x64 .f32 0x00000000#32) (ix2 p q)
      = ∑ k : Fin 256, a (ix2 p k) * b (ix2 k q) := by
  refine (Ideal.matmul_constant_zero_apply dot_S2048x256_S256x64_S2048x64_1_0_0_1_n_n none a b (ix2 p q)).trans ?_
  rw [← Equiv.sum_comp (ValueIdx.contrEquiv1 dot_S2048x256_S256x64_S2048x64_1_0_0_1_n_n 256 rfl rfl).symm]
  refine Finset.sum_congr rfl fun k _ => ?_
  have hk := ValueIdx.contrEquiv1_symm_val dot_S2048x256_S256x64_S2048x64_1_0_0_1_n_n 256 rfl rfl k
  have el : dot_S2048x256_S256x64_S2048x64_1_0_0_1_n_n.lhsIdx (ix2 p q)
      ((ValueIdx.contrEquiv1 dot_S2048x256_S256x64_S2048x64_1_0_0_1_n_n 256 rfl rfl).symm k) = ix2 p k :=
    funext fun d => Fin.ext (by
      match d with
      | ⟨0, _⟩ => exact lhs_row _ _
      | ⟨1, _⟩ => exact (lhs_col _ _).trans hk)
  have er : dot_S2048x256_S256x64_S2048x64_1_0_0_1_n_n.rhsIdx (ix2 p q)
      ((ValueIdx.contrEquiv1 dot_S2048x256_S256x64_S2048x64_1_0_0_1_n_n 256 rfl rfl).symm k) = ix2 k q :=
    funext fun d => Fin.ext (by
      match d with
      | ⟨0, _⟩ => exact (rhs_row _ _).trans hk
      | ⟨1, _⟩ => exact rhs_col _ _)
  rw [el, er]

/-! ## The bias row along every row -/

/-- The 1 × 64 row laid along 2048 rows reads, at `(p, q)`, the row's entry `(0, q)`: on the row's axis
    of extent 1 the coordinate is 0, on its axis of extent 64 it is the output's column. -/
theorem bias_apply {α : Type} (y : S1x64.Idx → α) (p : Fin 2048) (q : Fin 64) :
    broadcastTo S2048x64 (shapeCast S1x64 y shapeCasts_S1x64_S1x64) broadcasts_S1x64_S2048x64 (ix2 p q) = y (ix2 0 q) := by
  rw [shapeCast_self]
  exact broadcastTo_apply y broadcasts_S1x64_S2048x64 (ix2 p q) (ix2 0 q) (fun d => match d with
    | ⟨0, _⟩ => by show 0 = if (1 : Nat) = 1 then 0 else p.val; rw [if_pos rfl]
    | ⟨1, _⟩ => by show q.val = if (64 : Nat) = 1 then 0 else q.val; rw [if_neg (by decide)])

/-! ## The output block at an entry -/

/-- Entry `(p, q)` of the body's value: the product entry plus the bias entry, the narrowing of the two
    factors to 16 bits being the identity over the extended reals. -/
theorem k0_pay1_apply (x0 : Vec Ideal S2048x256 .f32) (x1 : Vec Ideal S256x64 .f32) (x2 : Vec Ideal S1x64 .f32)
    (p : Fin 2048) (q : Fin 64) :
    k0_pay1 (F := Ideal) x0 x1 x2 (ix2 p q) = (∑ k : Fin 256, x0 (ix2 p k) * x1 (ix2 k q)) + x2 (ix2 0 q) := by
  unfold k0_pay1
  show matmul (F := Ideal) dot_S2048x256_S256x64_S2048x64_1_0_0_1_n_n none (truncf .bf16 x0 bitsLt_bf16_f32) (truncf .bf16 x1 bitsLt_bf16_f32)
        (constant (F := Ideal) S2048x64 .f32 0x00000000#32) (ix2 p q)
      + broadcastTo S2048x64 (shapeCast S1x64 x2 shapeCasts_S1x64_S1x64) broadcasts_S1x64_S2048x64 (ix2 p q) = _
  rw [matmul_zero_apply, bias_apply]
  rfl

/-- Entry `(p, q)` of the block of `h` one step writes, from the step's three input blocks. -/
theorem out0_3_apply (x0 : Vec Ideal S2048x256 .f32) (x1 : Vec Ideal S256x64 .f32) (x2 : Vec Ideal S1x64 .f32)
    (p : Fin 2048) (q : Fin 64) :
    Cert.KernelIdeal.Hand.out0_3 (F := Ideal) x0 x1 x2 (ix2 p q)
      = (∑ k : Fin 256, x0 (ix2 p k) * x1 (ix2 k q)) + x2 (ix2 0 q) := by
  rw [out0_3_eq_pay]
  exact k0_pay1_apply x0 x1 x2 p q

end Cert.KernelIdeal.HandValue

end
-- ==== Proof.KI.Region0Array.lean ====
import proofs.«147028_j60885456388981_1_alg».proof.Proof.KI.Region0Value

/-!
# The projected array, entry by entry

After the eight steps of the projection, the array `h` (16384 × 64) holds, at row `r` and column `j`,

    (sum over k < 256 of x (r, k) * W (k, j)) + b (0, j)

where `x`, `W` and the 1 × 64 bias row `b` are the arrays as the region finds them.

The argument. Step `t` sees rows `2048 t … 2048 t + 2047` of `x` and all of `W` and `b`, so by the
entry formula of one step, row `p` of the block it writes is row `2048 t + p` of the function above:
each step writes its own row block of ONE function of the arrays. Row `r` of `h` lies in the block of
step `r / 2048`, and every step writes its block back; so every entry of `h` is written, and whichever
step wrote it last wrote the function's value there.
-/

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

/-! ## The function the region computes -/

/-- `projOf a0 a2 a3 (r, j) = (∑ k < 256, a0 (r, k) * a2 (k, j)) + a3 (0, j)`. -/
def projOf (a0 : S16384x256.Idx → EReal) (a2 : S256x64.Idx → EReal) (a3 : S1x64.Idx → EReal) : S16384x64.Idx → EReal :=
  fun i => (∑ k : Fin 256, a0 (ix2 (i 0) k) * a2 (ix2 k (i 1))) + a3 (ix2 0 (i 1))

theorem projOf_ix2 (a0 : S16384x256.Idx → EReal) (a2 : S256x64.Idx → EReal) (a3 : S1x64.Idx → EReal)
    (r : Fin 16384) (j : Fin 64) :
    projOf a0 a2 a3 (ix2 r j) = (∑ k : Fin 256, a0 (ix2 r k) * a2 (ix2 k j)) + a3 (ix2 0 j) := rfl

/-! ## One step, over plain blocks -/

/-- If `x0` is rows `2048 s … 2048 s + 2047` of `a0`, `x1` is `a2` and `x2` is `a3`, then row `p` of the
    block the step writes is row `2048 s + p` of `projOf a0 a2 a3`. -/
theorem out0_3_rows (x0 : Vec Ideal S2048x256 .f32) (x1 : Vec Ideal S256x64 .f32) (x2 : Vec Ideal S1x64 .f32)
    (a0 : S16384x256.Idx → EReal) (a2 : S256x64.Idx → EReal) (a3 : S1x64.Idx → EReal)
    (p : Fin 2048) (q : Fin 64) (r : Fin 16384)
    (h0 : ∀ k : Fin 256, x0 (ix2 p k) = a0 (ix2 r k))
    (h1 : ∀ k : Fin 256, x1 (ix2 k q) = a2 (ix2 k q))
    (h2 : x2 (ix2 0 q) = a3 (ix2 0 q)) :
    Cert.KernelIdeal.Hand.out0_3 (F := Ideal) x0 x1 x2 (ix2 p q) = projOf a0 a2 a3 (ix2 r q) := by
  rw [out0_3_apply, projOf_ix2, h2]
  exact congrArg (· + a3 (ix2 0 q)) (Finset.sum_congr rfl fun k _ => by rw [h0 k, h1 k])

/-! ## Which block each step looks at -/

/-- Step `t` looks at row block `t` of `x` and of `h` (column block 0), and at block (0, 0) of `W` and of
    the bias row: read off the four index maps, once for each of the 8 steps. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- There are 8 steps. -/
theorem step_lt (t : Fin cfg0.N) : t.val < 8 := by
  have h := t.isLt
  have hN : cfg0.N = 8 := N_0
  omega

section Blocks
variable (V : (c : Dev nD) → (b : Ref sig .tc) → Buf (Elt Ideal) ((c : Thread nD τ).loc b))

/-! ## The input blocks, read at an entry -/

/-- Entry `(p, k)` of the block of `x` at step `t` is entry `(2048 t + p, k)` of `x`. -/
theorem iblk0_x (c : Dev nD) (t : Fin cfg0.N) (p : Fin 2048) (k : Fin 256) (r : Fin 16384) (hr : r.val = 2048 * t.val + p.val) :
    iblk0 V c 0 t (ix2 p k) = V c main_arg0 (ix2 r k) := by
  obtain ⟨e00, e01, -⟩ := block_index t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 2048 + 1 * p.val = r.val; omega
  | ⟨1, _⟩ => show win0_0.index t (1 : Fin 2) * 256 + 1 * k.val = k.val; omega

/-- The block of `W` at any step is `W`. -/
theorem iblk0_W (c : Dev nD) (t : Fin cfg0.N) (k : Fin 256) (q : Fin 64) :
    iblk0 V c 1 t (ix2 k q) = V c main_arg2 (ix2 k q) := by
  obtain ⟨-, -, e10, e11, -⟩ := block_index t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 256 + 1 * k.val = k.val; omega
  | ⟨1, _⟩ => show win0_1.index t (1 : Fin 2) * 64 + 1 * q.val = q.val; omega

/-- The block of the bias row at any step is the bias row. -/
theorem iblk0_b (c : Dev nD) (t : Fin cfg0.N) (q : Fin 64) :
    iblk0 V c 2 t (ix2 0 q) = V c main_v0 (ix2 0 q) := by
  obtain ⟨-, -, -, -, e20, e21, -⟩ := block_index t
  show V c main_v0 (((cfg0.win 2).blk t).view.emb (ix2 0 q)) = V c main_v0 (ix2 0 q)
  refine congrArg (V c main_v0) (funext fun a => Fin.ext ?_)
  match a with
  | ⟨0, _⟩ => show win0_2.index t (0 : Fin 2) * 1 + 1 * 0 = 0; omega
  | ⟨1, _⟩ => show win0_2.index t (1 : Fin 2) * 64 + 1 * q.val = q.val; omega

/-! ## What a step writes back -/

/-- Step `t` writes back row block `t` of `projOf x W b`. -/
theorem flushed3_eq (c : Dev nD) (t : Fin cfg0.N) :
    (dat0 (F := Ideal) V c).flushed 3 t
      = ((cfg0.win 3).blk t).view.read (Elt Ideal) (projOf (V c main_arg0) (V c main_arg2) (V c main_v0)) := by
  show (cfg0.win 3).cut (grid0.coords t) ((dat0 (F := Ideal) V c).after 3 t) = _
  rw [after0_3]
  obtain ⟨-, -, -, -, -, -, e30, e31⟩ := block_index t
  have ht := step_lt t
  funext j
  obtain ⟨p, q, rfl⟩ : ∃ (p : Fin 2048) (q : Fin 64), j = ix2 p q := ⟨j 0, j 1, eq_ix2 j⟩
  have hr : 2048 * t.val + p.val < 16384 := by have := p.isLt; omega
  have hemb : ((cfg0.win 3).blk t).view.emb (ix2 p q) = ix2 (⟨2048 * t.val + p.val, hr⟩ : Fin 16384) q :=
    funext fun a => Fin.ext (by
      match a with
      | ⟨0, _⟩ => show win0_3.index t (0 : Fin 2) * 2048 + 1 * p.val = 2048 * t.val + p.val; omega
      | ⟨1, _⟩ => show win0_3.index t (1 : Fin 2) * 64 + 1 * q.val = q.val; omega)
  show Cert.KernelIdeal.Hand.out0_3 (F := Ideal) (iblk0 V c 0 t) (iblk0 V c 1 t) (iblk0 V c 2 t) (ix2 p q)
    = projOf (V c main_arg0) (V c main_arg2) (V c main_v0) (((cfg0.win 3).blk t).view.emb (ix2 p q))
  rw [hemb]
  exact out0_3_rows _ _ _ _ _ _ p q ⟨2048 * t.val + p.val, hr⟩
    (fun k => iblk0_x V c t p k _ rfl) (fun k => iblk0_W V c t k q) (iblk0_b V c t q)

/-! ## Every entry is written -/

/-- An entry of `h` is in the block of step `t` when each coordinate is in the block's range. -/
theorem mem_blk3 (t : Fin cfg0.N) (i : S16384x64.Idx) :
    i ∈ ((cfg0.win 3).blk t).view.set ↔ ∀ a : Fin 2, win0_3.index t a * S2048x64.size a ≤ (i a).val
      ∧ (i a).val < win0_3.index t a * S2048x64.size a + S2048x64.size a := by
  show i ∈ ((View.whole main_v1).slice (win0_3.rect t)).set ↔ _
  rw [View.set_slice_whole, Rect.mem_set_unit]
  exact Iff.rfl

/-- Row `r` is in the block of step `r / 2048`, which is written back. -/
theorem covered3 (i : S16384x64.Idx) :
    ∃ t : Fin cfg0.N, (cfg0.win 3).flush t = true ∧ i ∈ ((cfg0.win 3).blk t).view.set := by
  have hi0 : (i 0).val < 16384 := (i 0).isLt
  have hi1 : (i 1).val < 64 := (i 1).isLt
  have hN : cfg0.N = 8 := N_0
  refine ⟨⟨(i 0).val / 2048, by omega⟩, flush0_3 _, ?_⟩
  rw [mem_blk3]
  obtain ⟨-, -, -, -, -, -, e30, e31⟩ := block_index ⟨(i 0).val / 2048, by omega⟩
  intro a
  match a with
  | ⟨0, _⟩ =>
    show win0_3.index _ (0 : Fin 2) * 2048 ≤ (i 0).val ∧ (i 0).val < win0_3.index _ (0 : Fin 2) * 2048 + 2048
    rw [e30]; show (i 0).val / 2048 * 2048 ≤ (i 0).val ∧ (i 0).val < (i 0).val / 2048 * 2048 + 2048; omega
  | ⟨1, _⟩ =>
    show win0_3.index _ (1 : Fin 2) * 64 ≤ (i 1).val ∧ (i 1).val < win0_3.index _ (1 : Fin 2) * 64 + 64
    rw [e31]; omega

/-! ## The array after the region -/

/-- After the eight steps the array `h` is `projOf x W b` of the arrays as the region found them. -/
theorem region0_value_projOf (c : Dev nD) :
    (Cert.KernelIdeal.Hand.dat0 (F := Ideal) V c).arrAt 3 cfg0.N = projOf (V c main_arg0) (V c main_arg2) (V c main_v0) :=
  (dat0 (F := Ideal) V c).arrAt_eq_of_cover 3 (projOf (V c main_arg0) (V c main_arg2) (V c main_v0))
    (fun t _ => flushed3_eq V c t) (fun i => covered3 i)

/-- The same with the function written out, the three arrays named: entry `(r, j)` is
    `(∑ k < 256, a0 (r, k) * a2 (k, j)) + a3 (0, j)`. -/
theorem region0_value (c : Dev nD) (a0 : S16384x256.Idx → EReal) (a2 : S256x64.Idx → EReal) (a3 : S1x64.Idx → EReal)
    (h0 : V c main_arg0 = a0) (h2 : V c main_arg2 = a2) (h3 : V c main_v0 = a3) :
    (Cert.KernelIdeal.Hand.dat0 (F := Ideal) V c).arrAt 3 cfg0.N
      = fun i : S16384x64.Idx => (∑ k : Fin 256, a0 (ix2 (i 0) k) * a2 (ix2 k (i 1))) + a3 (ix2 0 (i 1)) := by
  subst h0 h2 h3
  exact region0_value_projOf V c

end Blocks

end Cert.KernelIdeal.HandValue

end
-- ==== Proof.KI.R1Pieces.lean ====
/-
  What each case of the aggregation kernel's body leaves, as the body's arithmetic of what it was given.

  The body reads each of its buffers whole (through the rectangle that starts at the origin and has the buffer's extents)
  and writes whole; a whole write leaves exactly what was written, whatever was there, and a whole read of it gives that
  back.  So, for any arithmetic of floats, with x0 the tile of adj, x1 the tile of the projected features and xs what
  the accumulator held on entry:
    on the first column block the accumulator ends at  step x0 x1 zeros   (the reset, then the accumulating store whose
                                                                           third operand is the reset value read back),
    on every other column block it ends at             step x0 x1 xs,
    and on the last column block the output block ends at  ramp (step x0 x1 xs)  (the ramp's operand is the accumulator
                                                                           read back after its store),
  where step, zeros and ramp are the body's three computed values k1_pay2, k1_pay1 and k1_pay3.
-/
import proofs.«147028_j60885456388981_1_alg».proof.Proof.KI.Region1
import Idealize.ShloMosaic.Lib.Pipeline.Value
import Idealize.ShloMosaic.Lib.ValueIdx

set_option maxRecDepth 16384

noncomputable section

open scoped BigOperators

namespace Cert.KernelIdeal.AggValue

open Cert.KernelIdeal Cert.KernelIdeal.Gen Cert.KernelIdeal.Hand
open Idealize.ShloMosaic Idealize.ShloMosaic.TcCoe Idealize.ShloMosaic.Tactic Idealize.ShloMosaic.ValueIdx
open Idealize.SL.Sem

variable {F : FTy → Type} [FloatOps F]

/-- The origin of a rank-2 array. -/
theorem hz : (![0, 0] : Fin 2 → Nat) = fun _ => 0 := funext fun a => by fin_cases a <;> rfl

/-- On a middle column block the accumulator ends at the step of the two tiles and what it held. -/
theorem sout1_B_eq (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : ¬cond1_1 i)
    (x0 : Vec F S1024x2048 .f32) (x1 : Vec F S2048x64 .f32) (xs0 : Vec F S1024x64 .f32) :
    sout1_B c i arg2 harg2 arg3 harg3 arg4 harg4 arg5 harg5 hc0 hc1 x0 x1 xs0 = k1_pay2 x0 x1 xs0 := by
  unfold sout1_B
  rw [View.read_writes_eq_canon _ _ _ (scover1_B c i arg2 harg2 arg3 harg3 arg4 harg4 arg5 harg5 hc0 hc1 x0 x1 xs0)]
  unfold kernelRun1_B
  dsimp only
  rw [View.canon_unit_zero hz]
  simp only [View.readAt_eq_ld, harg2.read_unread, harg3.read_unread, harg5.read_unread,
    View.ld_unit_zero (S := S1024x2048) hz, View.ld_unit_zero (S := S2048x64) hz, View.ld_unit_zero (S := S1024x64) hz]

/-- On the last column block likewise. -/
theorem sout1_C_eq (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i)
    (x0 : Vec F S1024x2048 .f32) (x1 : Vec F S2048x64 .f32) (xs0 : Vec F S1024x64 .f32) :
    sout1_C c i arg2 harg2 arg3 harg3 arg4 harg4 arg5 harg5 hc0 hc1 x0 x1 xs0 = k1_pay2 x0 x1 xs0 := by
  unfold sout1_C
  rw [View.read_writes_eq_canon _ _ _ (scover1_C c i arg2 harg2 arg3 harg3 arg4 harg4 arg5 harg5 hc0 hc1 x0 x1 xs0)]
  unfold kernelRun1_C
  dsimp only
  sl_unfold_words
  rw [View.canon_unit_zero hz]
  simp only [View.readAt_eq_ld, harg2.read_unread, harg3.read_unread, harg5.read_unread,
    View.ld_unit_zero (S := S1024x2048) hz, View.ld_unit_zero (S := S2048x64) hz, View.ld_unit_zero (S := S1024x64) hz]

/-- On the last column block the output block ends at the ramp of that step: the accumulator is read back after its store. -/
theorem out1_C_2_eq (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i)
    (x0 : Vec F S1024x2048 .f32) (x1 : Vec F S2048x64 .f32) (xs0 : Vec F S1024x64 .f32) :
    out1_C_2 c i arg2 harg2 arg3 harg3 arg4 harg4 arg5 harg5 hc0 hc1 x0 x1 xs0 = k1_pay3 (k1_pay2 x0 x1 xs0) := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero hz, View.readCov_unit_zero (S := S1024x64) _ hz]
  simp only [View.readAt_eq_ld, harg2.read_unread, harg3.read_unread, harg5.read_unread,
    View.ld_unit_zero (S := S1024x2048) hz, View.ld_unit_zero (S := S2048x64) hz, View.ld_unit_zero (S := S1024x64) hz]

/-- On the first column block the accumulator ends at the step of the two tiles and the zero array: the reset is read back. -/
theorem sout1_A_eq (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond1_0 i) (hc1 : ¬cond1_1 i)
    (x0 : Vec F S1024x2048 .f32) (x1 : Vec F S2048x64 .f32) :
    sout1_A c i arg2 harg2 arg3 harg3 arg4 harg4 arg5 harg5 hc0 hc1 x0 x1 = k1_pay2 x0 x1 k1_pay1 := by
  unfold sout1_A
  rw [View.read_writes_eq_canon _ _ _ (scover1_A c i arg2 harg2 arg3 harg3 arg4 harg4 arg5 harg5 hc0 hc1 x0 x1)]
  unfold kernelRun1_A
  dsimp only
  sl_unfold_words
  rw [View.canon_cons_unit_zero (S := S1024x64) hz, View.readCov_unit_zero (S := S1024x64) _ hz]
  simp only [View.readAt_eq_ld, harg2.read_unread, harg3.read_unread,
    View.ld_unit_zero (S := S1024x2048) hz, View.ld_unit_zero (S := S2048x64) hz]

end Cert.KernelIdeal.AggValue

end
-- ==== Proof.KI.R1Payloads.lean ====
/-
  The aggregation kernel's three computed values, entry by entry, over the extended reals.

  With x0 a 1024 x 2048 tile, x1 a 2048 x 64 tile and xs a 1024 x 64 array, at row p and column q:
    zeros (p, q)          = 0,
    step x0 x1 xs (p, q)  = xs (p, q) + sum over k < 2048 of x0 (p, k) * x1 (k, q),
    ramp v (p, q)         = max (v (p, q)) 0.
  Narrowing a number to 16 bits changes nothing over the extended reals; a matrix product accumulated into zeros is, entry
  by entry, the sum of the products along the one contracted axis; reshaping an array to its own shape changes nothing;
  and the float whose bits are all zero is the number 0.
-/
import proofs.«147028_j60885456388981_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.AggValue

open Cert.KernelIdeal Cert.KernelIdeal.Gen
open Idealize.ShloMosaic Idealize.ShloMosaic.ValueIdx Idealize.SL.Sem

/-! ## Where the tile product looks in its two factors -/

/-- The left factor's row is the output's row … -/
theorem lhs_row (i : S1024x64.Idx) (k : dot_S1024x2048_S2048x64_S1024x64_1_0_0_1_n_n.contr.Idx) :
    (dot_S1024x2048_S2048x64_S1024x64_1_0_0_1_n_n.lhsIdx i k 0).val = (i 0).val := by
  unfold DotDims.lhsIdx
  rw [dif_neg (show ¬(0 : Fin S1024x2048.rank) ∈ dot_S1024x2048_S2048x64_S1024x64_1_0_0_1_n_n.lhsBatch by decide),
    dif_pos (show (0 : Fin S1024x2048.rank) ∈ dot_S1024x2048_S2048x64_S1024x64_1_0_0_1_n_n.lhsNonContracting by decide)]
  rfl

/-- … and its column is the summation index. -/
theorem lhs_col (i : S1024x64.Idx) (k : dot_S1024x2048_S2048x64_S1024x64_1_0_0_1_n_n.contr.Idx) :
    (dot_S1024x2048_S2048x64_S1024x64_1_0_0_1_n_n.lhsIdx i k 1).val = (k ⟨0, by decide⟩).val :=
  dot_S1024x2048_S2048x64_S1024x64_1_0_0_1_n_n.lhsIdx_val_of_single rfl i k

/-- The right factor's row is the summation index … -/
theorem rhs_row (i : S1024x64.Idx) (k : dot_S1024x2048_S2048x64_S1024x64_1_0_0_1_n_n.contr.Idx) :
    (dot_S1024x2048_S2048x64_S1024x64_1_0_0_1_n_n.rhsIdx i k 0).val = (k ⟨0, by decide⟩).val :=
  dot_S1024x2048_S2048x64_S1024x64_1_0_0_1_n_n.rhsIdx_val_of_single rfl i k

/-- … and its column is the output's column. -/
theorem rhs_col (i : S1024x64.Idx) (k : dot_S1024x2048_S2048x64_S1024x64_1_0_0_1_n_n.contr.Idx) :
    (dot_S1024x2048_S2048x64_S1024x64_1_0_0_1_n_n.rhsIdx i k 1).val = (i 1).val := by
  unfold DotDims.rhsIdx
  rw [dif_neg (show ¬(1 : Fin S2048x64.rank) ∈ dot_S1024x2048_S2048x64_S1024x64_1_0_0_1_n_n.rhsBatch by decide),
    dif_pos (show (1 : Fin S2048x64.rank) ∈ dot_S1024x2048_S2048x64_S1024x64_1_0_0_1_n_n.rhsNonContracting by decide)]
  rfl

/-! ## The product into zeros, at an entry -/

/-- Entry (p, q) of the product of a (1024 x 2048) and b (2048 x 64) accumulated into zeros is the sum over k < 2048 of
    a (p, k) * b (k, q): the product's own sum runs over the one-axis contraction index, re-indexed by its coordinate. -/
theorem matmul_zero_apply {φ₁ φ₂ : FTy} (a : FVec Ideal S1024x2048 φ₁) (b : FVec Ideal S2048x64 φ₂) (p : Fin 1024) (q : Fin 64) :
    matmul dot_S1024x2048_S2048x64_S1024x64_1_0_0_1_n_n none a b (constant S1024x64 .f32 0x00000000#32) (ix2 p q)
      = ∑ k : Fin 2048, a (ix2 p k) * b (ix2 k q) := by
  refine (Ideal.matmul_constant_zero_apply dot_S1024x2048_S2048x64_S1024x64_1_0_0_1_n_n none a b (ix2 p q)).trans ?_
  rw [← Equiv.sum_comp (ValueIdx.contrEquiv1 dot_S1024x2048_S2048x64_S1024x64_1_0_0_1_n_n 2048 rfl rfl).symm]
  refine Finset.sum_congr rfl fun k _ => ?_
  have hk := ValueIdx.contrEquiv1_symm_val dot_S1024x2048_S2048x64_S1024x64_1_0_0_1_n_n 2048 rfl rfl k
  have el : dot_S1024x2048_S2048x64_S1024x64_1_0_0_1_n_n.lhsIdx (ix2 p q)
      ((ValueIdx.contrEquiv1 dot_S1024x2048_S2048x64_S1024x64_1_0_0_1_n_n 2048 rfl rfl).symm k) = ix2 p k :=
    funext fun d => Fin.ext (by
      match d with
      | ⟨0, _⟩ => exact lhs_row _ _
      | ⟨1, _⟩ => exact (lhs_col _ _).trans hk)
  have er : dot_S1024x2048_S2048x64_S1024x64_1_0_0_1_n_n.rhsIdx (ix2 p q)
      ((ValueIdx.contrEquiv1 dot_S1024x2048_S2048x64_S1024x64_1_0_0_1_n_n 2048 rfl rfl).symm k) = ix2 k q :=
    funext fun d => Fin.ext (by
      match d with
      | ⟨0, _⟩ => exact (rhs_row _ _).trans hk
      | ⟨1, _⟩ => exact rhs_col _ _)
  rw [el, er]

/-! ## The three computed values at an entry -/

/-- The reset value is zero everywhere. -/
theorem k1_pay1_apply (p : Fin 1024) (q : Fin 64) : k1_pay1 (F := Ideal) (ix2 p q) = 0 := by
  unfold k1_pay1
  show shapeCast S1024x64 (broadcast S1024x64 (Scalar.ofBits (F := Ideal) .f32 0x00000000#32)) shapeCasts_S1024x64_S1024x64 (ix2 p q) = 0
  rw [shapeCast_self]
  exact Ideal.ofBits_zero_f32

/-- The accumulating value at (p, q): what the accumulator held there plus the tile product's entry, the narrowing of the
    two factors to 16 bits being the identity over the extended reals. -/
theorem k1_pay2_apply (x0 : Vec Ideal S1024x2048 .f32) (x1 : Vec Ideal S2048x64 .f32) (xs : Vec Ideal S1024x64 .f32)
    (p : Fin 1024) (q : Fin 64) :
    k1_pay2 (F := Ideal) x0 x1 xs (ix2 p q) = xs (ix2 p q) + ∑ k : Fin 2048, x0 (ix2 p k) * x1 (ix2 k q) := by
  unfold k1_pay2
  show shapeCast S1024x64 (addf xs (matmul (F := Ideal) dot_S1024x2048_S2048x64_S1024x64_1_0_0_1_n_n none (truncf .bf16 x0 bitsLt_bf16_f32)
      (truncf .bf16 (shapeCast S2048x64 x1 shapeCasts_S2048x64_S2048x64) bitsLt_bf16_f32) (constant (F := Ideal) S1024x64 .f32 0x00000000#32)))
      shapeCasts_S1024x64_S1024x64 (ix2 p q) = _
  rw [shapeCast_self, shapeCast_self]
  show xs (ix2 p q) + matmul (F := Ideal) dot_S1024x2048_S2048x64_S1024x64_1_0_0_1_n_n none (truncf .bf16 x0 bitsLt_bf16_f32)
      (truncf .bf16 x1 bitsLt_bf16_f32) (constant (F := Ideal) S1024x64 .f32 0x00000000#32) (ix2 p q) = _
  rw [matmul_zero_apply]
  rfl

/-- The ramp at (p, q): the larger of the entry and zero. -/
theorem k1_pay3_apply (v : Vec Ideal S1024x64 .f32) (p : Fin 1024) (q : Fin 64) :
    k1_pay3 (F := Ideal) v (ix2 p q) = max (v (ix2 p q)) 0 := by
  unfold k1_pay3
  show max (v (ix2 p q)) (Ideal.ofBits .f32 0x00000000#32) = _
  rw [Ideal.ofBits_zero_f32]

end Cert.KernelIdeal.AggValue

end
-- ==== Proof.Spec.lean ====
/-
  The mathematics both programs compute, stated once over the argument arrays as functions of an index into the
  extended reals, with no program in sight.

  With x : 16384 x 256, W : 256 x 64, b : 64 and adj : 16384 x 16384,
    h (r, j)   = (sum over k < 256 of x (r, k) * W (k, j)) + b j          -- the projected features
    out (r, j) = max (sum over k < 16384 of adj (r, k) * h (k, j)) 0      -- the aggregation over all rows, then the ramp
  The kernel forms the inner sum of out in eight column blocks of 2048: blockTerm s is the part of the sum with
  2048 s <= k < 2048 (s + 1), and the sum of the eight block terms is the whole sum because addition of extended reals is
  commutative and associative (no finiteness is needed for that).
-/
import Idealize.ShloMosaic.PureOps.Ideal
import Idealize.ShloMosaic.Lib.ValueIdx

noncomputable section

open scoped BigOperators

namespace Cert.Spec

open Idealize.ShloMosaic Idealize.ShloMosaic.ValueIdx

/-- The shapes of the four arguments and of the result (and of the projected features). -/
abbrev SX : Shape := ⟨2, ![16384, 256]⟩
abbrev SA : Shape := ⟨2, ![16384, 16384]⟩
abbrev SW : Shape := ⟨2, ![256, 64]⟩
abbrev SB : Shape := ⟨1, ![64]⟩
abbrev SO : Shape := ⟨2, ![16384, 64]⟩

/-- The projected features: entry (r, j) is the inner product of row r of x with column j of W, plus b j. -/
def proj (x : SX.Idx → EReal) (W : SW.Idx → EReal) (b : SB.Idx → EReal) : SO.Idx → EReal :=
  fun i => (∑ k : Fin 256, x (ix2 (i 0) k) * W (ix2 k (i 1))) + b (ix1 (i 1))

/-- Row r of adj against column j of h, over all 16384 rows of h. -/
def agg (adj : SA.Idx → EReal) (h : SO.Idx → EReal) (r : Fin 16384) (j : Fin 64) : EReal :=
  ∑ k : Fin 16384, adj (ix2 r k) * h (ix2 k j)

/-- Row 2048 s + q of an array of 16384 rows. -/
abbrev blockRow (s : Fin 8) (q : Fin 2048) : Fin 16384 := ⟨2048 * s.val + q.val, by omega⟩

/-- The part of that sum whose k lies in column block s of adj (equally: row block s of h). -/
def blockTerm (adj : SA.Idx → EReal) (h : SO.Idx → EReal) (r : Fin 16384) (j : Fin 64) (s : Fin 8) : EReal :=
  ∑ q : Fin 2048, adj (ix2 r (blockRow s q)) * h (ix2 (blockRow s q) j)

/-- The aggregation as the kernel forms it: the eight block terms added up, then the ramp. -/
def aggBlocks (adj : SA.Idx → EReal) (h : SO.Idx → EReal) : SO.Idx → EReal :=
  fun i => max (∑ s : Fin 8, blockTerm adj h (i 0) (i 1) s) 0

/-- The result both programs compute. -/
def G (x : SX.Idx → EReal) (adj : SA.Idx → EReal) (W : SW.Idx → EReal) (b : SB.Idx → EReal) : SO.Idx → EReal :=
  fun i => max (agg adj (proj x W b) (i 0) (i 1)) 0

end Cert.Spec

end
-- ==== Proof.KI.R1Blocks.lean ====
/-
  The aggregation kernel's two input tiles, entry by entry.

  Grid point t works on row block t / 8 and column block t % 8.  A block's entry sits in its array at (block index) x
  (block extent) + (the coordinate inside the block) on each axis, so at point t
    the tile of adj at (p, k)                     is adj at (1024 (t / 8) + p, 2048 (t % 8) + k),
    the tile of the projected features at (k, q)  is h at (2048 (t % 8) + k, q).
  The block indices are read off the kernel's index maps, decided over the 128 grid points.
-/
import proofs.«147028_j60885456388981_1_alg».proof.Proof.KI.Region1
import proofs.«147028_j60885456388981_1_alg».proof.Proof.Spec
import Idealize.ShloMosaic.Lib.Pipeline.Value
import Idealize.ShloMosaic.Lib.ValueIdx

set_option maxRecDepth 16384

noncomputable section

open scoped BigOperators

namespace Cert.KernelIdeal.AggValue

open Cert.KernelIdeal Cert.KernelIdeal.Gen Cert.KernelIdeal.Hand
open Idealize.ShloMosaic Idealize.ShloMosaic.TcCoe Idealize.ShloMosaic.ValueIdx
open Idealize.SL.Sem

variable {F : FTy → Type} [FloatOps F]
variable (V : (c : Dev nD) → (b : Ref sig .tc) → Buf (Elt F) ((c : Thread nD τ).loc b))

/-- The three windows' block indices at grid point t: the tile of adj is at (t / 8, t % 8), the tile of the projected
    features at (t % 8, 0), the output block at (t / 8, 0). Decided over the 128 points. -/
theorem idx_facts : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

/-- Entry (p, k) of the tile of adj at point t is adj at row 1024 (t / 8) + p and column 2048 (t % 8) + k. -/
theorem iblk1_0_apply (c : Dev nD) (t : Fin cfg1.N) (p : Fin 1024) (k : Fin 2048) (r kk : Fin 16384)
    (hr : r.val = 1024 * (t.val / 8) + p.val) (hk : kk.val = 2048 * (t.val % 8) + k.val) :
    (iblk1 V c 0 t : Vec F S1024x2048 .f32) (ix2 p k) = V c main_arg1 (ix2 r kk) := by
  obtain ⟨e0, e1, -⟩ := idx_facts t
  show V c main_arg1 (((cfg1.win 0).blk t).view.emb (ix2 p k)) = V c main_arg1 (ix2 r kk)
  congr 1
  funext a; apply Fin.ext
  match a with
  | ⟨0, _⟩ => show win1_0.index t (0 : Fin 2) * 1024 + 1 * p.val = r.val; omega
  | ⟨1, _⟩ => show win1_0.index t (1 : Fin 2) * 2048 + 1 * k.val = kk.val; omega

/-- Entry (k, q) of the tile of the projected features at point t is h at row 2048 (t % 8) + k and column q. -/
theorem iblk1_1_apply (c : Dev nD) (t : Fin cfg1.N) (k : Fin 2048) (q : Fin 64) (kk : Fin 16384)
    (hk : kk.val = 2048 * (t.val % 8) + k.val) :
    (iblk1 V c 1 t : Vec F S2048x64 .f32) (ix2 k q) = V c main_v1 (ix2 kk q) := by
  obtain ⟨-, -, e2, e3, -⟩ := idx_facts t
  show V c main_v1 (((cfg1.win 1).blk t).view.emb (ix2 k q)) = V c main_v1 (ix2 kk q)
  congr 1
  funext a; apply Fin.ext
  match a with
  | ⟨0, _⟩ => show win1_1.index t (0 : Fin 2) * 2048 + 1 * k.val = kk.val; omega
  | ⟨1, _⟩ => show win1_1.index t (1 : Fin 2) * 64 + 1 * q.val = q.val; omega

end Cert.KernelIdeal.AggValue

end
-- ==== Proof.KI.R1Acc.lean ====
/-
  What the aggregation kernel's accumulator and output block hold after each grid point, over the extended reals.

  Fix a device and the arrays adj and h as the kernel finds them.  For a row r and a column j write B s for block term s:
  the part of the sum over k of adj (r, k) * h (k, j) with 2048 s <= k < 2048 (s + 1).  Grid point t works on row block
  t / 8 and column block t % 8, and the step of the body at t adds, at entry (p, q) of the accumulator, block term t % 8
  of row 1024 (t / 8) + p and column q: the tile product's sum over k < 2048 is that block term, because the two tiles
  are the matching parts of adj and h.  The first column block of a row block resets the accumulator first.  Hence, by
  induction on the point,
    after point t the accumulator's entry (p, q) is  B 0 + ... + B (t % 8)   for row 1024 (t / 8) + p and column q,
  and on the last column block (t % 8 = 7) the output block's entry is the ramp of all eight terms, which is the
  specification's blockwise result at that row and column.
-/
import proofs.«147028_j60885456388981_1_alg».proof.Proof.KI.R1Pieces
import proofs.«147028_j60885456388981_1_alg».proof.Proof.KI.R1Payloads
import proofs.«147028_j60885456388981_1_alg».proof.Proof.KI.R1Blocks
import proofs.«147028_j60885456388981_1_alg».proof.Proof.Spec
import Idealize.ShloMosaic.Lib.Pipeline.Value
import Idealize.ShloMosaic.Lib.ValueIdx

set_option maxRecDepth 16384

noncomputable section

open scoped BigOperators

namespace Cert.KernelIdeal.AggValue

open Cert.KernelIdeal Cert.KernelIdeal.Gen Cert.KernelIdeal.Hand
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- Block term s of row r and column j for any natural number s: zero from 8 on. -/
def blockTermN (adj : Spec.SA.Idx → EReal) (h : Spec.SO.Idx → EReal) (r : Fin 16384) (j : Fin 64) (s : ℕ) : EReal :=
  if hs : s < 8 then Spec.blockTerm adj h r j ⟨s, hs⟩ else 0

theorem blockTermN_of_lt (adj : Spec.SA.Idx → EReal) (h : Spec.SO.Idx → EReal) (r : Fin 16384) (j : Fin 64) (s : ℕ) (hs : s < 8) :
    blockTermN adj h r j s = Spec.blockTerm adj h r j ⟨s, hs⟩ := dif_pos hs

/-- The step at point t: entry (p, q) is what the accumulator held there plus block term t % 8 of row 1024 (t / 8) + p. -/
theorem step_apply (c : Dev nD) (t : Fin cfg1.N) (xs : Vec Ideal S1024x64 .f32) (p : Fin 1024) (q : Fin 64) (r : Fin 16384)
    (hr : r.val = 1024 * (t.val / 8) + p.val) :
    k1_pay2 (F := Ideal) (iblk1 V c 0 t) (iblk1 V c 1 t) xs (ix2 p q)
      = xs (ix2 p q) + blockTermN (V c main_arg1) (V c main_v1) r q (t.val % 8) := by
  have hm : t.val % 8 < 8 := Nat.mod_lt _ (by decide)
  rw [k1_pay2_apply, blockTermN_of_lt _ _ _ _ _ hm]
  congr 1
  unfold Spec.blockTerm
  refine Finset.sum_congr rfl fun k _ => ?_
  rw [iblk1_0_apply V c t p k r (Spec.blockRow ⟨t.val % 8, hm⟩ k) hr rfl,
    iblk1_1_apply V c t k q (Spec.blockRow ⟨t.val % 8, hm⟩ k) rfl]

/-! ## The accumulator and the output block at a grid point, entry by entry -/

/-- On the first column block the accumulator's entry is block term 0 of its row: the reset contributes 0. -/
theorem accA_apply (c : Dev nD) (t : Fin cfg1.N) (h0 : t.val % 8 = 0) (h1 : ¬t.val % 8 = 7) (p : Fin 1024) (q : Fin 64)
    (r : Fin 16384) (hr : r.val = 1024 * (t.val / 8) + p.val) :
    accA V c t h0 h1 (ix2 p q) = blockTermN (V c main_arg1) (V c main_v1) r q (t.val % 8) := by
  unfold accA
  rw [sout1_A_eq, step_apply V c t _ p q r hr, k1_pay1_apply, zero_add]

/-- On a middle column block it is what the point before left plus this point's block term. -/
theorem accB_apply (c : Dev nD) (t : Fin cfg1.N) (h0 : ¬t.val % 8 = 0) (h1 : ¬t.val % 8 = 7) (xs : Vec Ideal S1024x64 .f32)
    (p : Fin 1024) (q : Fin 64) (r : Fin 16384) (hr : r.val = 1024 * (t.val / 8) + p.val) :
    accB V c t h0 h1 xs (ix2 p q) = xs (ix2 p q) + blockTermN (V c main_arg1) (V c main_v1) r q (t.val % 8) := by
  unfold accB
  rw [sout1_B_eq, step_apply V c t xs p q r hr]

/-- On the last column block likewise … -/
theorem accC_apply (c : Dev nD) (t : Fin cfg1.N) (h0 : ¬t.val % 8 = 0) (h1 : t.val % 8 = 7) (xs : Vec Ideal S1024x64 .f32)
    (p : Fin 1024) (q : Fin 64) (r : Fin 16384) (hr : r.val = 1024 * (t.val / 8) + p.val) :
    accC V c t h0 h1 xs (ix2 p q) = xs (ix2 p q) + blockTermN (V c main_arg1) (V c main_v1) r q (t.val % 8) := by
  unfold accC
  rw [sout1_C_eq, step_apply V c t xs p q r hr]

/-- … and the output block's entry is the ramp of that. -/
theorem outC_apply (c : Dev nD) (t : Fin cfg1.N) (h0 : ¬t.val % 8 = 0) (h1 : t.val % 8 = 7) (xs : Vec Ideal S1024x64 .f32)
    (p : Fin 1024) (q : Fin 64) (r : Fin 16384) (hr : r.val = 1024 * (t.val / 8) + p.val) :
    outC V c t h0 h1 xs (ix2 p q) = max (xs (ix2 p q) + blockTermN (V c main_arg1) (V c main_v1) r q (t.val % 8)) 0 := by
  unfold outC
  rw [out1_C_2_eq, k1_pay3_apply, step_apply V c t xs p q r hr]

/-! ## The invariant: after point n the accumulator holds the block terms up to column block n % 8 -/

/-- After point n, entry (p, q) of the accumulator is the sum of block terms 0, …, n % 8 of row 1024 (n / 8) + p and
    column q. By induction on the point: the first column block of a row block starts the sum afresh, every other one
    adds its term to what the point before (same row block, column block one less) left. -/
theorem acc_eq (c : Dev nD) : ∀ (n : ℕ) (hn : n < cfg1.N) (p : Fin 1024) (q : Fin 64) (r : Fin 16384)
      (hr : r.val = 1024 * (n / 8) + p.val),
    (outsAt1 V c n hn).2 (ix2 p q) = ∑ s ∈ Finset.range (n % 8 + 1), blockTermN (V c main_arg1) (V c main_v1) r q s
  | 0, hn, p, q, r, hr => by
    have h1 : ¬(⟨0, hn⟩ : Fin cfg1.N).val % 8 = 7 := fun h : 0 % 8 = 7 => absurd h (by decide)
    rw [outsAt1_A V c ⟨0, hn⟩ (Nat.zero_mod _) h1]
    dsimp only
    refine (accA_apply V c ⟨0, hn⟩ (Nat.zero_mod _) h1 p q r hr).trans ?_
    dsimp only
    rw [Nat.zero_mod, Finset.sum_range_one]
  | n + 1, hn, p, q, r, hr => by
    by_cases h0 : (n + 1) % 8 = 0
    · -- a new row block begins: the sum starts afresh with block term 0
      have h1 : ¬(n + 1) % 8 = 7 := by omega
      rw [outsAt1_A V c ⟨n + 1, hn⟩ h0 h1]
      dsimp only
      refine (accA_apply V c ⟨n + 1, hn⟩ h0 h1 p q r hr).trans ?_
      dsimp only
      rw [h0, Finset.sum_range_one]
    · -- the same row block, column block one more: one more term
      have hr' : r.val = 1024 * (n / 8) + p.val := by omega
      have hm : (n + 1) % 8 = n % 8 + 1 := by omega
      have ih := acc_eq c n (Nat.lt_of_succ_lt hn) p q r hr'
      by_cases h1 : (n + 1) % 8 = 7
      · rw [outsAt1_C V c ⟨n + 1, hn⟩ h0 h1]
        dsimp only
        refine (accC_apply V c ⟨n + 1, hn⟩ h0 h1 (outsAt1 V c n (Nat.lt_of_succ_lt hn)).2 p q r hr).trans ?_
        dsimp only
        rw [ih, Finset.sum_range_succ _ ((n + 1) % 8), hm]
      · rw [outsAt1_B V c ⟨n + 1, hn⟩ h0 h1]
        dsimp only
        refine (accB_apply V c ⟨n + 1, hn⟩ h0 h1 (outsAt1 V c n (Nat.lt_of_succ_lt hn)).2 p q r hr).trans ?_
        dsimp only
        rw [ih, Finset.sum_range_succ _ ((n + 1) % 8), hm]

/-- So on the last column block of a row block the output block's entry (p, q) is the specified blockwise result at row
    1024 (t / 8) + p and column q: the ramp of all eight block terms. -/
theorem out_eq (c : Dev nD) (t : Fin cfg1.N) (h1 : t.val % 8 = 7) (p : Fin 1024) (q : Fin 64) (r : Fin 16384)
    (hr : r.val = 1024 * (t.val / 8) + p.val) :
    (outsAt1 V c t.val t.isLt).1 (ix2 p q) = Spec.aggBlocks (V c main_arg1) (V c main_v1) (ix2 r q) := by
  have h0 : ¬t.val % 8 = 0 := by omega
  have hr' : r.val = 1024 * ((t.val - 1) / 8) + p.val := by omega
  have e1 : (t.val - 1) % 8 + 1 = 7 := by omega
  have hlt : t.val - 1 < cfg1.N := Nat.lt_of_le_of_lt (Nat.sub_le _ _) t.isLt
  rw [outsAt1_C V c t h0 h1]
  dsimp only
  refine (outC_apply V c t h0 h1 (outsAt1 V c (t.val - 1) hlt).2 p q r hr).trans ?_
  rw [acc_eq V c (t.val - 1) hlt p q r hr', e1, h1, ← Finset.sum_range_succ, Finset.sum_range]
  refine congrArg (fun x : EReal => max x 0) ?_
  exact Finset.sum_congr rfl fun s _ => blockTermN_of_lt _ _ r q s.val s.isLt

end Cert.KernelIdeal.AggValue

end
-- ==== Proof.KI.Region1Value.lean ====
/-
  The aggregation kernel's output array when the kernel is done, over the extended reals.

  Only the points on the last column block (t % 8 = 7) write the output block back, and what such a point writes is the
  ramp of all eight block terms at rows 1024 (t / 8), …, 1024 (t / 8) + 1023: its block of the specification's blockwise
  result.  The sixteen such points' blocks are the sixteen row blocks of the array, so every row is written, row i by
  point 8 (i / 1024) + 7.  Hence the array ends holding the blockwise result of adj and h as the kernel found them.
-/
import proofs.«147028_j60885456388981_1_alg».proof.Proof.KI.R1Acc
import Idealize.ShloMosaic.Lib.Pipeline.Value
import Idealize.ShloMosaic.Lib.ValueIdx

set_option maxRecDepth 16384

noncomputable section

open scoped BigOperators

namespace Cert.KernelIdeal.AggValue

open Cert.KernelIdeal Cert.KernelIdeal.Gen Cert.KernelIdeal.Hand
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- What a point on the last column block writes back is its block of the specified blockwise result: entry (p, q) of
    the block sits at row 1024 (t / 8) + p and column q of the array. -/
theorem flushed_eq (c : Dev nD) (t : Fin cfg1.N) (hf : (cfg1.win 2).flush t = true) :
    (dat1 V c).flushed 2 t = ((cfg1.win 2).blk t).view.read (Elt Ideal) (Spec.aggBlocks (V c main_arg1) (V c main_v1)) := by
  have h1 : t.val % 8 = 7 := (flush1_2 t).mp hf
  obtain ⟨-, -, -, -, e4, e5⟩ := idx_facts t
  have hN : cfg1.N = 128 := N_1
  have ht : t.val < cfg1.N := t.isLt
  show (cfg1.win 2).cut (grid1.coords t) ((dat1 V c).after 2 t) = _
  rw [after1_2]
  funext j
  obtain ⟨p, q, rfl⟩ : ∃ p q, j = ix2 p q := ⟨j 0, j 1, eq_ix2 j⟩
  show (outsAt1 V c t.val t.isLt).1 (ix2 p q)
    = Spec.aggBlocks (V c main_arg1) (V c main_v1) (((cfg1.win 2).blk t).view.emb (ix2 p q))
  rw [out_eq V c t h1 p q ⟨1024 * (t.val / 8) + p.val, by omega⟩ rfl]
  congr 1
  funext a; apply Fin.ext
  match a with
  | ⟨0, _⟩ => show 1024 * (t.val / 8) + p.val = win1_2.index t (0 : Fin 2) * 1024 + 1 * p.val; omega
  | ⟨1, _⟩ => show q.val = win1_2.index t (1 : Fin 2) * 64 + 1 * q.val; omega

/-- Every row lies in the block some last-column-block point writes back: row i in that of point 8 (i / 1024) + 7. So
    when the kernel is done its output array holds the specified blockwise result. -/
theorem region1_value (c : Dev nD) :
    (dat1 (F := Ideal) V c).arrAt 2 cfg1.N = Spec.aggBlocks (V c main_arg1) (V c main_v1) :=
  (dat1 V c).arrAt_eq_of_cover 2 (Spec.aggBlocks (V c main_arg1) (V c main_v1)) (flushed_eq V c) fun i => by
    have hN : cfg1.N = 128 := N_1
    have hi0 : (i 0).val < 16384 := (i 0).isLt
    have hi1 : (i 1).val < 64 := (i 1).isLt
    have hlt : 8 * ((i 0).val / 1024) + 7 < cfg1.N := by omega
    obtain ⟨-, -, -, -, e4, e5⟩ := idx_facts ⟨8 * ((i 0).val / 1024) + 7, hlt⟩
    have e4' : win1_2.index ⟨8 * ((i 0).val / 1024) + 7, hlt⟩ (0 : Fin 2) = (8 * ((i 0).val / 1024) + 7) / 8 := e4
    refine ⟨⟨8 * ((i 0).val / 1024) + 7, hlt⟩, (flush1_2 _).mpr (show (8 * ((i 0).val / 1024) + 7) % 8 = 7 by omega), ?_⟩
    show i ∈ ((View.whole main_v2).slice (win1_2.rect ⟨8 * ((i 0).val / 1024) + 7, hlt⟩)).set
    rw [View.set_slice_whole, Rect.mem_set_unit]
    intro a
    match a with
    | ⟨0, _⟩ =>
      show win1_2.index ⟨8 * ((i 0).val / 1024) + 7, hlt⟩ (0 : Fin 2) * 1024 ≤ (i 0).val
        ∧ (i 0).val < win1_2.index ⟨8 * ((i 0).val / 1024) + 7, hlt⟩ (0 : Fin 2) * 1024 + 1024
      omega
    | ⟨1, _⟩ =>
      show win1_2.index ⟨8 * ((i 0).val / 1024) + 7, hlt⟩ (1 : Fin 2) * 64 ≤ (i 1).val
        ∧ (i 1).val < win1_2.index ⟨8 * ((i 0).val / 1024) + 7, hlt⟩ (1 : Fin 2) * 64 + 64
      omega

end Cert.KernelIdeal.AggValue

end
-- ==== Proof.SpecLaws.lean ====
/-
  The regrouping law behind the kernel's eight column blocks, and the identification of the blockwise result with the
  specification.

  Every k < 16384 is 2048 s + q for exactly one pair s < 8, q < 2048.  Hence a sum over k < 16384, in any commutative
  additive monoid, is the sum over s < 8 of the sums over q < 2048 of the terms at 2048 s + q: only commutativity and
  associativity of addition are used, so the law holds for extended reals with no finiteness assumption.
-/
import proofs.«147028_j60885456388981_1_alg».proof.Proof.Spec
import Mathlib.Algebra.BigOperators.Fin
import Mathlib.Logic.Equiv.Fin.Basic

noncomputable section

open scoped BigOperators

namespace Cert.Spec

open Idealize.ShloMosaic Idealize.ShloMosaic.ValueIdx

/-- A sum over 16384 = 8 * 2048 indices is the sum over the eight blocks of the sums over each block of 2048.
    The pairs (s, q) correspond one-to-one to the indices 2048 s + q, and a sum over pairs is an iterated sum. -/
theorem sum_blockRow {M : Type*} [AddCommMonoid M] (f : Fin 16384 → M) :
    ∑ k : Fin 16384, f k = ∑ s : Fin 8, ∑ q : Fin 2048, f (blockRow s q) := by
  -- re-index the sum by the pairs (s, q), through the bijection (s, q) ↦ q + 2048 s
  rw [← Equiv.sum_comp (finProdFinEquiv : Fin 8 × Fin 2048 ≃ Fin 16384) f, Fintype.sum_prod_type]
  -- the two sides now agree term by term: q + 2048 s = 2048 s + q
  refine Finset.sum_congr rfl fun s _ => Finset.sum_congr rfl fun q _ => ?_
  refine congrArg f (Fin.ext ?_)
  show q.val + 2048 * s.val = 2048 * s.val + q.val
  exact Nat.add_comm _ _

/-- Row r of adj against column j of h is the sum of its eight block terms. -/
theorem agg_eq_blocks (adj : SA.Idx → EReal) (h : SO.Idx → EReal) (r : Fin 16384) (j : Fin 64) :
    agg adj h r j = ∑ s : Fin 8, blockTerm adj h r j s :=
  sum_blockRow fun k => adj (ix2 r k) * h (ix2 k j)

/-- The blockwise aggregation of the projected features is the specified result. -/
theorem aggBlocks_eq_G (x : SX.Idx → EReal) (adj : SA.Idx → EReal) (W : SW.Idx → EReal) (b : SB.Idx → EReal) :
    aggBlocks adj (proj x W b) = G x adj W b := by
  funext i
  exact congrArg (fun t : EReal => max t 0) (agg_eq_blocks adj (proj x W b) (i 0) (i 1)).symm

end Cert.Spec

end
-- ==== Proof.KI.KernelValue.lean ====
/-
  The kernel's result array, as one function of the launch memory, at the exact reals.
  The aggregation kernel leaves in the result array the ramp of the eight block terms added up, over adj and the
  intermediate array it finds; the intermediate array is what the projection kernel left, x W + b entry by entry; and
  the eight block terms add up to the whole sum over the 16384 rows. So the result is max (adj (x W + b)) 0, the function
  the reference computes.
-/
import proofs.«147028_j60885456388981_1_alg».proof.Proof.KI.Entry
import proofs.«147028_j60885456388981_1_alg».proof.Proof.KI.Region0Array
import proofs.«147028_j60885456388981_1_alg».proof.Proof.KI.Region1Value
import proofs.«147028_j60885456388981_1_alg».proof.Proof.SpecLaws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-- The intermediate array the aggregation kernel finds is the projected features of the launch memory. -/
theorem In1_v1_eq_proj (c : Dev nD) :
    (In1 m c main_v1 : S16384x64.Idx → EReal) = Cert.Spec.proj (m ((c : Thread nD τ).loc main_arg0)) (m ((c : Thread nD τ).loc main_arg2)) (m ((c : Thread nD τ).loc main_arg3)) := by
  rw [In1_v1, region0_value_projOf]
  funext i
  obtain ⟨r, j, rfl⟩ : ∃ (r : Fin 16384) (j : Fin 64), i = ix2 r j := ⟨i 0, i 1, eq_ix2 i⟩
  refine (projOf_ix2 _ _ _ r j).trans ?_
  rw [In0_arg0, In0_arg2, In0_v0 m c j]
  rfl

/-- The result array after the run is the specification's function of the four argument arrays. -/
theorem kernel_value (c : Dev nD) :
    (dat1 (F := Ideal) (In1 m) c).arrAt 2 cfg1.N
      = Cert.Spec.G (m ((c : Thread nD τ).loc main_arg0)) (m ((c : Thread nD τ).loc main_arg1)) (m ((c : Thread nD τ).loc main_arg2)) (m ((c : Thread nD τ).loc main_arg3)) := by
  rw [Cert.KernelIdeal.AggValue.region1_value, In1_arg1, In1_v1_eq_proj, Cert.Spec.aggBlocks_eq_G]

end Cert.KernelIdeal.HandValue

end
-- ==== Proof.RefIsG.lean ====
/-
  The reference program computes the specified result.

  Read one entry (p, q) of the reference's output, operation by operation from the last one back: it is the larger of
  zero and the inner product of row p of adj with column q of the array whose entry (k, q) is the inner product of row
  k of x with column q of W, plus b q.  That is the specification's G at (p, q), once each operand index is written by
  its coordinates.
-/
import proofs.«147028_j60885456388981_1_alg».proof.Proof.Gen.ReferenceIdeal.Read
import proofs.«147028_j60885456388981_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- In the outer product, entry (p, q) pairs adj (p, k) with the projected features at (k, q). -/
theorem lidx_v4 (p : Fin 16384) (q : Fin 64) (k : Fin 16384) : lidx_main_v4 (ix2 p q) k = ix2 p k :=
  funext fun a => Fin.ext (by match a with | ⟨0, _⟩ => rfl | ⟨1, _⟩ => rfl)

theorem ridx_v4 (p : Fin 16384) (q : Fin 64) (k : Fin 16384) : ridx_main_v4 (ix2 p q) k = ix2 k q :=
  funext fun a => Fin.ext (by match a with | ⟨0, _⟩ => rfl | ⟨1, _⟩ => rfl)

/-- In the inner product, entry (k, q) pairs x (k, l) with W (l, q). -/
theorem lidx_v0 (k : Fin 16384) (q : Fin 64) (l : Fin 256) : lidx_main_v0 (ix2 k q) l = ix2 k l :=
  funext fun a => Fin.ext (by match a with | ⟨0, _⟩ => rfl | ⟨1, _⟩ => rfl)

theorem ridx_v0 (k : Fin 16384) (q : Fin 64) (l : Fin 256) : ridx_main_v0 (ix2 k q) l = ix2 l q :=
  funext fun a => Fin.ext (by match a with | ⟨0, _⟩ => rfl | ⟨1, _⟩ => rfl)

/-- The bias, spread first along a new leading axis and then down the rows, is read at its column. -/
theorem idx_v1_v2 (k : Fin 16384) (q : Fin 64) : idx_main_v1 (idx_main_v2 (ix2 k q)) = ix1 q :=
  funext fun a => Fin.ext (by match a with | ⟨0, _⟩ => rfl)

/-- The reference's output, as a function of x, adj, W and b, is G x adj W b. -/
theorem ref_is_G (x0 : (⟨S16384x256, .f32⟩ : BufTy).Contents (Elt Ideal)) (x1 : (⟨S16384x16384, .f32⟩ : BufTy).Contents (Elt Ideal))
    (x2 : (⟨S256x64, .f32⟩ : BufTy).Contents (Elt Ideal)) (x3 : (⟨S64, .f32⟩ : BufTy).Contents (Elt Ideal)) :
    Cert.ReferenceIdeal.Read.val_main_v5 (F := Ideal) x0 x1 x2 x3 = Cert.Spec.G x0 x1 x2 x3 := by
  -- compare the two arrays entry by entry, at the entry with coordinates (p, q)
  funext i
  obtain ⟨p, q, rfl⟩ : ∃ p q, i = ix2 p q := ⟨i 0, i 1, eq_ix2 i⟩
  -- the last operation is the maximum with the constant; its first operand is the outer inner product
  rw [val_main_v5_apply, val_main_v4_apply, val_main_call0_v0_apply, val_main_call0_cst_apply]
  -- each summand's second factor is the inner inner product plus the bias; maximum and sum of floats are those of
  -- extended reals
  simp only [val_main_v3_apply, val_main_v0_apply, val_main_v2_apply, val_main_v1_apply,
    lidx_v4, ridx_v4, lidx_v0, ridx_v0, idx_v1_v2, Ideal.maximumf_def, Ideal.addf_def]
  -- the ramp's constant, the float with all bits zero, is the extended real 0
  rw [show FloatOps.ofBits (F := Ideal) .f32 0x00000000#32 = (0 : EReal) from Ideal.ofBits_zero_f32]
  -- what remains is the specification at (p, q), whose coordinates compute
  rfl

end Cert.ReferenceIdeal.RefValue

end
-- ==== Proof.lean ====
/-
  A two-layer graph aggregation, out = max (adj (x W + b)) 0 with x : 16384 x 256, W : 256 x 64, b : 64 and
  adj : 16384 x 16384, computed by two kernels against the plain formula.

  The first kernel forms the projected features h = x W + b, eight row blocks of 2048 at a time. The second forms
  adj h row block by row block (sixteen of 1024 rows), each as a sum over eight column blocks of adj of 2048 columns
  kept in an accumulator across the blocks, and applies the ramp once the eighth block is in. Over the extended reals,
  where every change of float format is the identity and a matrix product is its plain sum, the accumulated block terms
  add up to the whole sum over the 16384 rows of h because addition is commutative and associative; nothing else separates
  the two programs, so they agree entry by entry and no finiteness of the inputs is used.

  The three frame claims: each kernel program is run region by region (a reshape of the bias on the host, then the two
  kernels), every unscoped buffer followed from boundary to boundary, and no region or host line writes an argument; the
  reference is a straight line of host operations. The idealization rewrote nothing, so its claim is trivial. The value
  claim reads the result array off the same run of the idealized kernel and off the reference's run, and both are the
  specification's function of the arguments.
-/
import proofs.«147028_j60885456388981_1_alg».proof.Defs
import proofs.«147028_j60885456388981_1_alg».proof.Proof.Gen.Kernel
import proofs.«147028_j60885456388981_1_alg».proof.Proof.Gen.Kernel.Skeleton
import proofs.«147028_j60885456388981_1_alg».proof.Proof.Gen.Kernel.Launch
import proofs.«147028_j60885456388981_1_alg».proof.Proof.Gen.Kernel.Regions
import proofs.«147028_j60885456388981_1_alg».proof.Proof.Gen.Kernel.Points
import proofs.«147028_j60885456388981_1_alg».proof.Proof.Gen.KernelIdeal
import proofs.«147028_j60885456388981_1_alg».proof.Proof.Gen.KernelIdeal.Skeleton
import proofs.«147028_j60885456388981_1_alg».proof.Proof.Gen.KernelIdeal.Launch
import proofs.«147028_j60885456388981_1_alg».proof.Proof.Gen.KernelIdeal.Regions
import proofs.«147028_j60885456388981_1_alg».proof.Proof.Gen.KernelIdeal.Points
import proofs.«147028_j60885456388981_1_alg».proof.Proof.Gen.ReferenceIdeal
import proofs.«147028_j60885456388981_1_alg».proof.Proof.Gen.ReferenceIdeal.Run
import proofs.«147028_j60885456388981_1_alg».proof.Proof.Gen.ReferenceIdeal.Read
import proofs.«147028_j60885456388981_1_alg».proof.Proof.Gen.Pre_finite_inputs
import proofs.«147028_j60885456388981_1_alg».proof.Proof.K.Run
import proofs.«147028_j60885456388981_1_alg».proof.Proof.KI.KernelValue
import proofs.«147028_j60885456388981_1_alg».proof.Proof.RefIsG
import Idealize.ShloMosaic.Adequacy
import Idealize.ShloMosaic.Init

noncomputable section

namespace Cert.Proof

open Idealize.ShloMosaic Idealize.SL.Sem

/-- The word-level kernel program runs to the end and leaves its four argument arrays as launched. -/
theorem frame_k : Cert.frame_Kernel := fun m ρ _ => Cert.Kernel.Hand.frame m ρ

/-- So does the idealized one. -/
theorem frame_ki : Cert.frame_KernelIdeal := fun m ρ _ => Cert.KernelIdeal.Hand.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at max (adj (x W + b)) 0 of the
    arguments: the kernel's read off its run, the reference's off its composed host operations. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.HandValue.kernel_value m c), (h c).2⟩)
      (Cert.KernelIdeal.Hand.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v5_eq, Cert.ReferenceIdeal.RefValue.ref_is_G,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
